-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S4194304x3x3 : Shape := ⟨3, ![4194304, 3, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel
  bcast_S_S4194304x3x3 : S_.BroadcastsInDim S4194304x3x3 (![] : Fin 0 → Fin S4194304x3x3.rank)
  reducesTo_S4194304x3x3_S_d0_1_2 : S4194304x3x3.ReducesTo [0, 1, 2] S_

variable [Facts]

def fn {F : FTy → Type} [FloatOps F] (main_arg0 : FVec F S4194304x3 .f32) (main_arg1 : FVec F S4194304x3x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  let main_v4 : FVec F S4194304x3x3 .f32 := Host.absf main_arg1
  let main_cst_0 : FVec F S_ .f32 := constant S_ .f32 0x7F800000#32
  let main_v5 : FVec F S4194304x3x3 .f32 := broadcastInDim S4194304x3x3 ![] bcast_S_S4194304x3x3 main_cst_0
  let main_v6 : IVec S4194304x3x3 1 := cmpf .olt main_v4 main_v5
  let main_c_1 : IVec S_ 1 := constantI S_ 1 1#1
  let main_v7 : IVec S_ 1 := (fun x v => Host.reduce IntOp.andi x v reducesTo_S4194304x3x3_S_d0_1_2 h_S_) main_v6 main_c_1
  let main_v8 : IVec S_ 1 := andi main_v3 main_v7
  main_v8
-- ==== Kernel.lean ====
abbrev S4194304x3 : Shape := ⟨2, ![4194304, 3]⟩
abbrev S4194304x3x3 : Shape := ⟨3, ![4194304, 3, 3]⟩
abbrev S4194304x9 : Shape := ⟨2, ![4194304, 9]⟩
abbrev S3x4194304 : Shape := ⟨2, ![3, 4194304]⟩
abbrev S3x32768x128 : Shape := ⟨3, ![3, 32768, 128]⟩
abbrev S9x4194304 : Shape := ⟨2, ![9, 4194304]⟩
abbrev S9x32768x128 : Shape := ⟨3, ![9, 32768, 128]⟩
abbrev S3x512x128 : Shape := ⟨3, ![3, 512, 128]⟩
abbrev S9x512x128 : Shape := ⟨3, ![9, 512, 128]⟩
abbrev S1x512x128 : Shape := ⟨3, ![1, 512, 128]⟩
abbrev S512x128 : Shape := ⟨2, ![512, 128]⟩

abbrev nBuf : Space → Nat
  | .hbm => 14
  | .vmem => 8
  | .smem => 0
  | _ => 0

abbrev bufTy : (tb : Table) → Fin (tcTables nBuf tb) → BufTy
  | .hbm, ⟨0, _⟩ => ⟨S4194304x3, .f32⟩
  | .hbm, ⟨1, _⟩ => ⟨S4194304x3x3, .f32⟩
  | .hbm, ⟨2, _⟩ => ⟨S4194304x9, .f32⟩
  | .hbm, ⟨3, _⟩ => ⟨S3x4194304, .f32⟩
  | .hbm, ⟨4, _⟩ => ⟨S3x32768x128, .f32⟩
  | .hbm, ⟨5, _⟩ => ⟨S9x4194304, .f32⟩
  | .hbm, ⟨6, _⟩ => ⟨S9x32768x128, .f32⟩
  | .hbm, ⟨7, _⟩ => ⟨S3x32768x128, .f32⟩
  | .hbm, ⟨8, _⟩ => ⟨S9x32768x128, .f32⟩
  | .hbm, ⟨9, _⟩ => ⟨S3x4194304, .f32⟩
  | .hbm, ⟨10, _⟩ => ⟨S4194304x3, .f32⟩
  | .hbm, ⟨11, _⟩ => ⟨S9x4194304, .f32⟩
  | .hbm, ⟨12, _⟩ => ⟨S4194304x9, .f32⟩
  | .hbm, ⟨13, _⟩ => ⟨S4194304x3x3, .f32⟩
  | .local _ .vmem, ⟨0, _⟩ => ⟨S3x512x128, .f32⟩
  | .local _ .vmem, ⟨1, _⟩ => ⟨S3x512x128, .f32⟩
  | .local _ .vmem, ⟨2, _⟩ => ⟨S9x512x128, .f32⟩
  | .local _ .vmem, ⟨3, _⟩ => ⟨S9x512x128, .f32⟩
  | .local _ .vmem, ⟨4, _⟩ => ⟨S3x512x128, .f32⟩
  | .local _ .vmem, ⟨5, _⟩ => ⟨S3x512x128, .f32⟩
  | .local _ .vmem, ⟨6, _⟩ => ⟨S9x512x128, .f32⟩
  | .local _ .vmem, ⟨7, _⟩ => ⟨S9x512x128, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S9x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4194304x3x3_S4194304x9 : S4194304x3x3.ShapeCasts S4194304x9
  transposes_S4194304x3_S3x4194304_1_0 : S4194304x3.Transposes [1, 0] S3x4194304
  shapeCasts_S3x4194304_S3x32768x128 : S3x4194304.ShapeCasts S3x32768x128
  transposes_S4194304x9_S9x4194304_1_0 : S4194304x9.Transposes [1, 0] S9x4194304
  shapeCasts_S9x4194304_S9x32768x128 : S9x4194304.ShapeCasts S9x32768x128
  inb_S3x512x128_S1x512x128_0_0_0 : ∀ a, (![0, 0, 0] : Fin 3 → Nat) a + S1x512x128.size a ≤ S3x512x128.size a
  h_S1x512x128 : 0 < S1x512x128.numel
  shapeCasts_S1x512x128_S512x128 : S1x512x128.ShapeCasts S512x128
  inb_S3x512x128_S1x512x128_1_0_0 : ∀ a, (![1, 0, 0] : Fin 3 → Nat) a + S1x512x128.size a ≤ S3x512x128.size a
  inb_S3x512x128_S1x512x128_2_0_0 : ∀ a, (![2, 0, 0] : Fin 3 → Nat) a + S1x512x128.size a ≤ S3x512x128.size a
  shapeCasts_S512x128_S1x512x128 : S512x128.ShapeCasts S1x512x128
  inb_S9x512x128_S1x512x128_0_0_0 : ∀ a, (![0, 0, 0] : Fin 3 → Nat) a + S1x512x128.size a ≤ S9x512x128.size a
  inb_S9x512x128_S1x512x128_1_0_0 : ∀ a, (![1, 0, 0] : Fin 3 → Nat) a + S1x512x128.size a ≤ S9x512x128.size a
  inb_S9x512x128_S1x512x128_2_0_0 : ∀ a, (![2, 0, 0] : Fin 3 → Nat) a + S1x512x128.size a ≤ S9x512x128.size a
  inb_S9x512x128_S1x512x128_3_0_0 : ∀ a, (![3, 0, 0] : Fin 3 → Nat) a + S1x512x128.size a ≤ S9x512x128.size a
  inb_S9x512x128_S1x512x128_4_0_0 : ∀ a, (![4, 0, 0] : Fin 3 → Nat) a + S1x512x128.size a ≤ S9x512x128.size a
  inb_S9x512x128_S1x512x128_5_0_0 : ∀ a, (![5, 0, 0] : Fin 3 → Nat) a + S1x512x128.size a ≤ S9x512x128.size a
  inb_S9x512x128_S1x512x128_6_0_0 : ∀ a, (![6, 0, 0] : Fin 3 → Nat) a + S1x512x128.size a ≤ S9x512x128.size a
  inb_S9x512x128_S1x512x128_7_0_0 : ∀ a, (![7, 0, 0] : Fin 3 → Nat) a + S1x512x128.size a ≤ S9x512x128.size a
  inb_S9x512x128_S1x512x128_8_0_0 : ∀ a, (![8, 0, 0] : Fin 3 → Nat) a + S1x512x128.size a ≤ S9x512x128.size a
  shapeCasts_S3x32768x128_S3x4194304 : S3x32768x128.ShapeCasts S3x4194304
  transposes_S3x4194304_S4194304x3_1_0 : S3x4194304.Transposes [1, 0] S4194304x3
  shapeCasts_S9x32768x128_S9x4194304 : S9x32768x128.ShapeCasts S9x4194304
  transposes_S9x4194304_S4194304x9_1_0 : S9x4194304.Transposes [1, 0] S4194304x9
  shapeCasts_S4194304x9_S4194304x3x3 : S4194304x9.ShapeCasts S4194304x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x512x128.size a ≤ S3x32768x128.size a
  hwx0_0 : ∀ i : grid0.Coords, EltTy.bits .f32 = 32 ∨ (Rect.block (s := S3x32768x128) S3x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9x512x128.size a ≤ S9x32768x128.size a
  hwx0_1 : ∀ i : grid0.Coords, EltTy.bits .f32 = 32 ∨ (Rect.block (s := S9x32768x128) S9x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x512x128.size a ≤ S3x32768x128.size a
  hwx0_2 : ∀ i : grid0.Coords, EltTy.bits .f32 = 32 ∨ (Rect.block (s := S3x32768x128) S3x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S9x512x128.size a ≤ S9x32768x128.size a
  hwx0_3 : ∀ i : grid0.Coords, EltTy.bits .f32 = 32 ∨ (Rect.block (s := S9x32768x128) S9x512x128.size (cc0_transform_3 i) (hinb0_3 i)).WholeWords (EltTy.packing .f32)

variable [Facts₀]

abbrev win0_0 : Pipeline.Window sig grid0 :=
  Pipeline.Window.ofSpec (Memref.whole main_v2) S3x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S9x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S3x512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S9x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S4194304x3x3 : Shape := ⟨3, ![4194304, 3, 3]⟩
abbrev S_ : Shape := ⟨0, ![]⟩
abbrev S4194304 : Shape := ⟨1, ![4194304]⟩
abbrev S4194304x1 : Shape := ⟨2, ![4194304, 1]⟩
abbrev S3x3 : Shape := ⟨2, ![3, 3]⟩
abbrev S4194304x1x1 : Shape := ⟨3, ![4194304, 1, 1]⟩
abbrev S1x3x3 : Shape := ⟨3, ![1, 3, 3]⟩
abbrev S4194304x1x3 : Shape := ⟨3, ![4194304, 1, 3]⟩
abbrev S4194304x3x1 : Shape := ⟨3, ![4194304, 3, 1]⟩

abbrev nBuf : Space → Nat
  | .hbm => 119
  | .vmem => 0
  | .smem => 0
  | _ => 0

abbrev bufTy : (tb : Table) → Fin (tcTables nBuf tb) → BufTy
  | .hbm, ⟨0, _⟩ => ⟨S4194304x3, .f32⟩
  | .hbm, ⟨1, _⟩ => ⟨S4194304x3x3, .f32⟩
  | .hbm, ⟨2, _⟩ => ⟨S4194304x3, .f32⟩
  | .hbm, ⟨3, _⟩ => ⟨S_, .f32⟩
  | .hbm, ⟨4, _⟩ => ⟨S4194304, .f32⟩
  | .hbm, ⟨5, _⟩ => ⟨S4194304x1, .f32⟩
  | .hbm, ⟨6, _⟩ => ⟨S4194304x1, .f32⟩
  | .hbm, ⟨7, _⟩ => ⟨S_, .f32⟩
  | .hbm, ⟨8, _⟩ => ⟨S4194304x1, .f32⟩
  | .hbm, ⟨9, _⟩ => ⟨S4194304x1, .i1⟩
  | .hbm, ⟨10, _⟩ => ⟨S_, .f32⟩
  | .hbm, ⟨11, _⟩ => ⟨S4194304x1, .f32⟩
  | .hbm, ⟨12, _⟩ => ⟨S4194304x1, .f32⟩
  | .hbm, ⟨13, _⟩ => ⟨S_, .f32⟩
  | .hbm, ⟨14, _⟩ => ⟨S4194304x1, .f32⟩
  | .hbm, ⟨15, _⟩ => ⟨S4194304x1, .f32⟩
  | .hbm, ⟨16, _⟩ => ⟨S4194304x3, .f32⟩
  | .hbm, ⟨17, _⟩ => ⟨S4194304x3, .f32⟩
  | .hbm, ⟨18, _⟩ => ⟨S4194304x3, .f32⟩
  | .hbm, ⟨19, _⟩ => ⟨S4194304x3, .f32⟩
  | .hbm, ⟨20, _⟩ => ⟨S4194304x3, .i1⟩
  | .hbm, ⟨21, _⟩ => ⟨S4194304x3, .f32⟩
  | .hbm, ⟨22, _⟩ => ⟨S4194304x3, .f32⟩
  | .hbm, ⟨23, _⟩ => ⟨S_, .f32⟩
  | .hbm, ⟨24, _⟩ => ⟨S4194304, .f32⟩
  | .hbm, ⟨25, _⟩ => ⟨S4194304x1, .f32⟩
  | .hbm, ⟨26, _⟩ => ⟨S4194304x1, .f32⟩
  | .hbm, ⟨27, _⟩ => ⟨S_, .f32⟩
  | .hbm, ⟨28, _⟩ => ⟨S4194304x1, .f32⟩
  | .hbm, ⟨29, _⟩ => ⟨S4194304x1, .f32⟩
  | .hbm, ⟨30, _⟩ => ⟨S_, .f32⟩
  | .hbm, ⟨31, _⟩ => ⟨S4194304x1, .f32⟩
  | .hbm, ⟨32, _⟩ => ⟨S4194304x1, .f32⟩
  | .hbm, ⟨33, _⟩ => ⟨S4194304x1, .f32⟩
  | .hbm, ⟨34, _⟩ => ⟨S_, .f32⟩
  | .hbm, ⟨35, _⟩ => ⟨S4194304x1, .f32⟩
  | .hbm, ⟨36, _⟩ => ⟨S4194304x1, .f32⟩
  | .hbm, ⟨37, _⟩ => ⟨S_, .f32⟩
  | .hbm, ⟨38, _⟩ => ⟨S4194304x1, .f32⟩
  | .hbm, ⟨39, _⟩ => ⟨S4194304x1, .f32⟩
  | .hbm, ⟨40, _⟩ => ⟨S4194304x3, .f32⟩
  | .hbm, ⟨41, _⟩ => ⟨S4194304x3, .f32⟩
  | .hbm, ⟨42, _⟩ => ⟨S4194304x1, .f32⟩
  | .hbm, ⟨43, _⟩ => ⟨S_, .f32⟩
  | .hbm, ⟨44, _⟩ => ⟨S4194304x1, .f32⟩
  | .hbm, ⟨45, _⟩ => ⟨S4194304x1, .f32⟩
  | .hbm, ⟨46, _⟩ => ⟨S4194304x3, .f32⟩
  | .hbm, ⟨47, _⟩ => ⟨S4194304x3, .f32⟩
  | .hbm, ⟨48, _⟩ => ⟨S3x3, .i32⟩
  | .hbm, ⟨49, _⟩ => ⟨S3x3, .i32⟩
  | .hbm, ⟨50, _⟩ => ⟨S_, .i32⟩
  | .hbm, ⟨51, _⟩ => ⟨S3x3, .i32⟩
  | .hbm, ⟨52, _⟩ => ⟨S3x3, .i32⟩
  | .hbm, ⟨53, _⟩ => ⟨S3x3, .i1⟩
  | .hbm, ⟨54, _⟩ => ⟨S3x3, .f32⟩
  | .hbm, ⟨55, _⟩ => ⟨S3x3, .f32⟩
  | .hbm, ⟨56, _⟩ => ⟨S4194304x1x1, .f32⟩
  | .hbm, ⟨57, _⟩ => ⟨S1x3x3, .f32⟩
  | .hbm, ⟨58, _⟩ => ⟨S4194304x3x3, .f32⟩
  | .hbm, ⟨59, _⟩ => ⟨S4194304x3x3, .f32⟩
  | .hbm, ⟨60, _⟩ => ⟨S4194304x3x3, .f32⟩
  | .hbm, ⟨61, _⟩ => ⟨S4194304x1x3, .f32⟩
  | .hbm, ⟨62, _⟩ => ⟨S1x3x3, .f32⟩
  | .hbm, ⟨63, _⟩ => ⟨S4194304x3x3, .f32⟩
  | .hbm, ⟨64, _⟩ => ⟨S4194304x3x3, .f32⟩
  | .hbm, ⟨65, _⟩ => ⟨S4194304x3x3, .f32⟩
  | .hbm, ⟨66, _⟩ => ⟨S_, .f32⟩
  | .hbm, ⟨67, _⟩ => ⟨S4194304x3, .f32⟩
  | .hbm, ⟨68, _⟩ => ⟨S4194304x3x1, .f32⟩
  | .hbm, ⟨69, _⟩ => ⟨S4194304x1x1, .f32⟩
  | .hbm, ⟨70, _⟩ => ⟨S4194304x3x3, .f32⟩
  | .hbm, ⟨71, _⟩ => ⟨S4194304x3x3, .f32⟩
  | .hbm, ⟨72, _⟩ => ⟨S4194304x1x3, .f32⟩
  | .hbm, ⟨73, _⟩ => ⟨S4194304x3x3, .f32⟩
  | .hbm, ⟨74, _⟩ => ⟨S4194304x3x3, .f32⟩
  | .hbm, ⟨75, _⟩ => ⟨S_, .f32⟩
  | .hbm, ⟨76, _⟩ => ⟨S4194304x3, .f32⟩
  | .hbm, ⟨77, _⟩ => ⟨S4194304x3x1, .f32⟩
  | .hbm, ⟨78, _⟩ => ⟨S4194304x3x1, .f32⟩
  | .hbm, ⟨79, _⟩ => ⟨S4194304x1x1, .f32⟩
  | .hbm, ⟨80, _⟩ => ⟨S4194304x3x3, .f32⟩
  | .hbm, ⟨81, _⟩ => ⟨S4194304x3x3, .f32⟩
  | .hbm, ⟨82, _⟩ => ⟨S4194304x3x1, .f32⟩
  | .hbm, ⟨83, _⟩ => ⟨S4194304x1x1, .f32⟩
  | .hbm, ⟨84, _⟩ => ⟨S4194304x3x1, .f32⟩
  | .hbm, ⟨85, _⟩ => ⟨S4194304x3x1, .f32⟩
  | .hbm, ⟨86, _⟩ => ⟨S_, .f32⟩
  | .hbm, ⟨87, _⟩ => ⟨S4194304x3x1, .f32⟩
  | .hbm, ⟨88, _⟩ => ⟨S4194304x3x1, .f32⟩
  | .hbm, ⟨89, _⟩ => ⟨S4194304x3x1, .f32⟩
  | .hbm, ⟨90, _⟩ => ⟨S4194304x3x1, .f32⟩
  | .hbm, ⟨91, _⟩ => ⟨S4194304x1x1, .f32⟩
  | .hbm, ⟨92, _⟩ => ⟨S4194304x3x1, .f32⟩
  | .hbm, ⟨93, _⟩ => ⟨S4194304x3x1, .f32⟩
  | .hbm, ⟨94, _⟩ => ⟨S_, .f32⟩
  | .hbm, ⟨95, _⟩ => ⟨S4194304x3, .f32⟩
  | .hbm, ⟨96, _⟩ => ⟨S4194304x3x3, .f32⟩
  | .hbm, ⟨97, _⟩ => ⟨S4194304x1x3, .f32⟩
  | .hbm, ⟨98, _⟩ => ⟨S4194304x3x3, .f32⟩
  | .hbm, ⟨99, _⟩ => ⟨S4194304x3x3, .f32⟩
  | .hbm, ⟨100, _⟩ => ⟨S4194304x1x3, .f32⟩
  | .hbm, ⟨101, _⟩ => ⟨S4194304x3x3, .f32⟩
  | .hbm, ⟨102, _⟩ => ⟨S4194304x3x3, .f32⟩
  | .hbm, ⟨103, _⟩ => ⟨S4194304x3x3, .f32⟩
  | .hbm, ⟨104, _⟩ => ⟨S4194304x3x3, .f32⟩
  | .hbm, ⟨105, _⟩ => ⟨S4194304x3x3, .f32⟩
  | .hbm, ⟨106, _⟩ => ⟨S4194304x3x3, .f32⟩
  | .hbm, ⟨107, _⟩ => ⟨S4194304x3, .f32⟩
  | .hbm, ⟨108, _⟩ => ⟨S_, .f32⟩
  | .hbm, ⟨109, _⟩ => ⟨S4194304, .f32⟩
  | .hbm, ⟨110, _⟩ => ⟨S4194304, .f32⟩
  | .hbm, ⟨111, _⟩ => ⟨S_, .f32⟩
  | .hbm, ⟨112, _⟩ => ⟨S4194304, .f32⟩
  | .hbm, ⟨113, _⟩ => ⟨S4194304, .i1⟩
  | .hbm, ⟨114, _⟩ => ⟨S4194304x3x3, .f32⟩
  | .hbm, ⟨115, _⟩ => ⟨S4194304x3x3, .f32⟩
  | .hbm, ⟨116, _⟩ => ⟨S4194304x1x1, .i1⟩
  | .hbm, ⟨117, _⟩ => ⟨S4194304x3x3, .i1⟩
  | .hbm, ⟨118, _⟩ => ⟨S4194304x3x3, .f32⟩
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_v0 : Ref sig .tc := ⟨.hbm, 20, rfl⟩
abbrev main_v11 : Ref sig .tc := ⟨.hbm, 21, rfl⟩
abbrev main_call2_v0 : Ref sig .tc := ⟨.hbm, 22, rfl⟩
abbrev main_call2_cst : Ref sig .tc := ⟨.hbm, 23, rfl⟩
abbrev main_call2_v1 : Ref sig .tc := ⟨.hbm, 24, rfl⟩
abbrev main_call2_v2 : Ref sig .tc := ⟨.hbm, 25, rfl⟩
abbrev main_v12_0 : Ref sig .tc := ⟨.hbm, 26, rfl⟩
abbrev main_call2_cst_0 : Ref sig .tc := ⟨.hbm, 27, rfl⟩
abbrev main_call2_v4 : Ref sig .tc := ⟨.hbm, 28, rfl⟩
abbrev main_v12_1 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_cst : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_call4_v0 : Ref sig .tc := ⟨.hbm, 107, rfl⟩
abbrev main_call4_cst : Ref sig .tc := ⟨.hbm, 108, rfl⟩
abbrev main_call4_v1 : Ref sig .tc := ⟨.hbm, 109, rfl⟩
abbrev main_v70 : Ref sig .tc := ⟨.hbm, 110, rfl⟩
abbrev main_cst_9 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_call5_v0 : Ref sig .tc := ⟨.hbm, 117, rfl⟩
abbrev main_v76 : Ref sig .tc := ⟨.hbm, 118, rfl⟩

abbrev nD : Nat := 1
abbrev τ : Topo := Topo.v7x

variable {F : FTy → Type} [FloatOps F]

class Facts₀ : Prop where
  reducesTo_S4194304x3_S4194304_d1 : S4194304x3.ReducesTo [1] S4194304
  h_S_ : 0 < S_.numel
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S4194304x1_S4194304x3_0_1 : S4194304x1.BroadcastsInDim S4194304x3 (![0, 1] : Fin 2 → Fin S4194304x3.rank)
  bcast_S_S3x3 : S_.BroadcastsInDim S3x3 (![] : Fin 0 → Fin S3x3.rank)
  slices_S3x3_S3x3_0_0 : S3x3.Slices ![0, 0] S3x3
  bcast_S4194304x1_S4194304x1x1_0_2 : S4194304x1.BroadcastsInDim S4194304x1x1 (![0, 2] : Fin 2 → Fin S4194304x1x1.rank)
  bcast_S3x3_S1x3x3_1_2 : S3x3.BroadcastsInDim S1x3x3 (![1, 2] : Fin 2 → Fin S1x3x3.rank)
  bcast_S4194304x1x1_S4194304x3x3_0_1_2 : S4194304x1x1.BroadcastsInDim S4194304x3x3 (![0, 1, 2] : Fin 3 → Fin S4194304x3x3.rank)
  bcast_S1x3x3_S4194304x3x3_0_1_2 : S1x3x3.BroadcastsInDim S4194304x3x3 (![0, 1, 2] : Fin 3 → Fin S4194304x3x3.rank)
  bcast_S4194304x3_S4194304x1x3_0_2 : S4194304x3.BroadcastsInDim S4194304x1x3 (![0, 2] : Fin 2 → Fin S4194304x1x3.rank)
  bcast_S4194304x1x3_S4194304x3x3_0_1_2 : S4194304x1x3.BroadcastsInDim S4194304x3x3 (![0, 1, 2] : Fin 3 → Fin S4194304x3x3.rank)
  reducesTo_S4194304x3x3_S4194304x3_d2 : S4194304x3x3.ReducesTo [2] S4194304x3
  shapeCasts_S4194304x3_S4194304x3x1 : S4194304x3.ShapeCasts S4194304x3x1
  bcast_S4194304x1x1_S4194304x3x1_0_1_2 : S4194304x1x1.BroadcastsInDim S4194304x3x1 (![0, 1, 2] : Fin 3 → Fin S4194304x3x1.rank)
  bcast_S_S4194304x3x1 : S_.BroadcastsInDim S4194304x3x1 (![] : Fin 0 → Fin S4194304x3x1.rank)
  reducesTo_S4194304x3x1_S4194304x3_d2 : S4194304x3x1.ReducesTo [2] S4194304x3
  bcast_S4194304x3_S4194304x3x3_0_1 : S4194304x3.BroadcastsInDim S4194304x3x3 (![0, 1] : Fin 2 → Fin S4194304x3x3.rank)
  slices_S4194304x3x3_S4194304x3x3_0_0_0 : S4194304x3x3.Slices ![0, 0, 0] S4194304x3x3
  bcast_S_S4194304 : S_.BroadcastsInDim S4194304 (![] : Fin 0 → Fin S4194304.rank)
  bcast_S4194304_S4194304x1x1_0 : S4194304.BroadcastsInDim S4194304x1x1 (![0] : Fin 1 → Fin S4194304x1x1.rank)
  dot_S4194304x3x3_S4194304x3x3_S4194304x3x3_1_2_2_1_0_0_wf : DotDims.WF S4194304x3x3 S4194304x3x3 S4194304x3x3 [1] [2] [2] [1] [0] [0]

variable [Facts₀]

def dot_S4194304x3x3_S4194304x3x3_S4194304x3x3_1_2_2_1_0_0 : DotDims S4194304x3x3 S4194304x3x3 S4194304x3x3 where
  lhsContracting := [1]
  rhsContracting := [2]
  lhsNonContracting := [2]
  rhsNonContracting := [1]
  lhsBatch := [0]
  rhsBatch := [0]
  wf := dot_S4194304x3x3_S4194304x3x3_S4194304x3x3_1_2_2_1_0_0_wf

class Facts : Prop extends Facts₀ where

variable [Facts]
-- ==== Proof.Spec.lean ====
/-
  Scene contraction of a Gaussian, per sample, on the extended reals.  A sample is a mean `x : Fin 3 → EReal` and a
  covariance `c : Fin 3 → Fin 3 → EReal`.  With `r = ‖x‖`, the contraction `f x = (2 - 1/r) · x / r` has the Jacobian
  `J = a·I + b·x xᵀ`, `a = 2/r - 1/r²`, `b = 2/r⁴ - 2/r³`; the contracted mean is `x` inside the unit ball and `f x`
  outside, the contracted covariance `c` inside and `J c Jᵀ` outside.

  Two spellings of the same two functions are written down here, operation by operation:
  * the CLOSED form (`k…`): `a`, `b` from the powers of `1/r`, and
    `(J c Jᵀ)ᵢⱼ = a²·cᵢⱼ + a·b·(vᵢ·xⱼ + xᵢ·wⱼ) + b²·s·xᵢ·xⱼ` with `v = c x`, `w = cᵀ x`, `s = x·v`;
  * the DIFFERENTIATED form (`r…`): the Jacobian as reverse-mode differentiation of `(2 - 1/‖x‖)·(x/‖x‖)` produces it
    (the cotangent of the norm `rg`, pulled back through `‖x‖ = √(Σ x²)` with the residual `½/‖x‖`), and
    `J c Jᵀ` as the two contractions `Σₖ (Σⱼ cⱼₖ·Jᵢⱼ)·Jₗₖ`.
-/
import Idealize.ShloMosaic.PureOps.Ideal

noncomputable section

namespace Cert.Contract

open Idealize.ShloMosaic

/-- The float words of 1, 2, ½ and 0 read as extended reals. -/
abbrev one : EReal := Ideal.ofBits .f32 0x3F800000#32
abbrev two : EReal := Ideal.ofBits .f32 0x40000000#32
abbrev half : EReal := Ideal.ofBits .f32 0x3F000000#32
abbrev zero : EReal := Ideal.ofBits .f32 0x00000000#32

/-! ## The closed form -/

/-- `‖x‖` as `√(x₀² + x₁² + x₂²)`. -/
def kr (x : Fin 3 → EReal) : EReal := Ideal.sqrt (x 0 * x 0 + x 1 * x 1 + x 2 * x 2)
/-- `1/‖x‖`. -/
def kinv (x : Fin 3 → EReal) : EReal := Ideal.div one (kr x)
/-- `1/‖x‖²`. -/
def kinv2 (x : Fin 3 → EReal) : EReal := kinv x * kinv x
/-- `a = 2/r - 1/r²`. -/
def ka (x : Fin 3 → EReal) : EReal := two * kinv x - kinv2 x
/-- `b = 2/r⁴ - 2/r³`. -/
def kb (x : Fin 3 → EReal) : EReal := two * (kinv2 x * kinv2 x) - two * (kinv2 x * kinv x)
/-- The contracted mean: `x` where `‖x‖ < 1`, else `a·x`. -/
def kMean (x : Fin 3 → EReal) (i : Fin 3) : EReal :=
  Scalar.select (Ideal.cmp .olt (kr x) one) (x i) (ka x * x i)
/-- `v = c x`. -/
def kv (x : Fin 3 → EReal) (c : Fin 3 → Fin 3 → EReal) (i : Fin 3) : EReal := c i 0 * x 0 + c i 1 * x 1 + c i 2 * x 2
/-- `w = cᵀ x`. -/
def kw (x : Fin 3 → EReal) (c : Fin 3 → Fin 3 → EReal) (j : Fin 3) : EReal := c 0 j * x 0 + c 1 j * x 1 + c 2 j * x 2
/-- `s = x · c x`. -/
def ks (x : Fin 3 → EReal) (c : Fin 3 → Fin 3 → EReal) : EReal := x 0 * kv x c 0 + x 1 * kv x c 1 + x 2 * kv x c 2
/-- The contracted covariance: `J c Jᵀ` in closed form where `‖x‖ ≥ 1`, else `c`. -/
def kCov (x : Fin 3 → EReal) (c : Fin 3 → Fin 3 → EReal) (i j : Fin 3) : EReal :=
  Scalar.select (Ideal.cmp .oge (kr x) one)
    (ka x * ka x * c i j + ka x * kb x * (kv x c i * x j + x i * kw x c j) + kb x * kb x * ks x c * x i * x j)
    (c i j)

/-! ## The differentiated form -/

/-- `‖x‖` as the square root of the sum (from 0) of the squares. -/
def rr (x : Fin 3 → EReal) : EReal := Ideal.sqrt (zero + ∑ k : Fin 3, x k * x k)
/-- The contracted mean: `x` where `‖x‖ < 1`, else `(2 - 1/‖x‖)·(x/‖x‖)`. -/
def rMean (x : Fin 3 → EReal) (i : Fin 3) : EReal :=
  Scalar.select (Ideal.cmp .olt (rr x) one) (x i) ((two - Ideal.div one (rr x)) * Ideal.div (x i) (rr x))
/-- The identity matrix. -/
def eye (i j : Fin 3) : EReal := if i = j then 1 else 0
/-- The cotangent that reaches `‖x‖` from output component `i`: `-(2 - 1/r)·xᵢ/r² + (xᵢ/r)/r²`, as reverse mode spells it. -/
def rg (x : Fin 3 → EReal) (i : Fin 3) : EReal :=
  -(zero + ∑ k : Fin 3, (two - Ideal.div one (rr x)) * eye i k * Ideal.div one (rr x * rr x) * x k)
    + -(-(zero + ∑ k : Fin 3, eye i k * Ideal.div (x k) (rr x)) * Ideal.div one (rr x * rr x) * one)
/-- That cotangent times the square root's residual `½/‖x‖`, summed over a unit axis. -/
def rt (x : Fin 3 → EReal) (i : Fin 3) : EReal := zero + ∑ _k : Fin 1, rg x i * Ideal.div half (rr x)
/-- The Jacobian entry `∂fᵢ/∂xⱼ`: the direct term `(2 - 1/r)·δᵢⱼ/r` plus the pull-back through the squares. -/
def rJ (x : Fin 3 → EReal) (i j : Fin 3) : EReal :=
  Ideal.div ((two - Ideal.div one (rr x)) * eye i j) (rr x) + (x j * rt x i + rt x i * x j)
/-- The contracted covariance: `Σₖ (Σⱼ cⱼₖ·Jᵢⱼ)·Jₗₖ` where `‖x‖ ≥ 1`, else `c`. -/
def rCov (x : Fin 3 → EReal) (c : Fin 3 → Fin 3 → EReal) (i l : Fin 3) : EReal :=
  Scalar.select (Ideal.cmp .oge (rr x) one) (∑ k : Fin 3, (∑ j : Fin 3, c j k * rJ x i j) * rJ x l k) (c i l)

end Cert.Contract

end
-- ==== Proof.Layout.lean ====
/-
  The structure-of-arrays layout of the contraction: the means as a `[3, R, 128]` array (component, row of 128 samples,
  lane) and the covariances as `[9, R, 128]` (entry `(a, b)` of the 3x3 matrix at component `3a + b`).  `soaMean` /
  `soaCov` are the contracted mean and covariance (closed form) of the sample at `(row, lane) = (p, q)`.
-/
import proofs.«130601_j54795192762843_2_alg».proof.Proof.Spec
import Idealize.ShloMosaic.Lib.ValueIdx

noncomputable section

namespace Cert.Contract

open Idealize.ShloMosaic Idealize.ShloMosaic.ValueIdx

/-- Entry `(a, b)` of a 3x3 matrix sits at component `3a + b` of its flattening. -/
abbrev flat (a b : Fin 3) : Fin 9 := ⟨3 * a.val + b.val, by omega⟩
/-- The row of component `k`. -/
abbrev row (k : Fin 9) : Fin 3 := ⟨k.val / 3, by omega⟩
/-- The column of component `k`. -/
abbrev col (k : Fin 9) : Fin 3 := ⟨k.val % 3, by omega⟩

theorem row_flat (a b : Fin 3) : row (flat a b) = a := Fin.ext (by show (3 * a.val + b.val) / 3 = a.val; omega)
theorem col_flat (a b : Fin 3) : col (flat a b) = b := Fin.ext (by show (3 * a.val + b.val) % 3 = b.val; omega)

/-- Component `a` of the contracted mean of the sample at `(p, q)`. -/
def soaMean {R : ℕ} (A0 : (⟨3, ![3, R, 128]⟩ : Shape).Idx → EReal) (a : Fin 3) (p : Fin R) (q : Fin 128) : EReal :=
  kMean (fun b => A0 (ix3 b p q)) a

/-- Component `k` of the contracted covariance of the sample at `(p, q)`. -/
def soaCov {R : ℕ} (A0 : (⟨3, ![3, R, 128]⟩ : Shape).Idx → EReal) (A1 : (⟨3, ![9, R, 128]⟩ : Shape).Idx → EReal)
    (k : Fin 9) (p : Fin R) (q : Fin 128) : EReal :=
  kCov (fun b => A0 (ix3 b p q)) (fun a b => A1 (ix3 (flat a b) p q)) (row k) (col k)

end Cert.Contract

end
-- ==== Proof.KernelPoint.lean ====
/-
  One grid point of the contraction kernel, read at an index.  The body loads the three slabs of the mean block
  `[3, 512, 128]` and the nine slabs of the covariance block `[9, 512, 128]`, computes lane by lane, and stores one slab per
  output component.  Here: slab `a` of the mean output at row `p`, lane `q` is the closed-form contracted mean of the
  sample at `(p, q)` (`soaMean`), slab `k` of the covariance output its contracted covariance (`soaCov`); so the whole
  output blocks are those functions of the input blocks (`out2_apply`, `out3_apply`).
-/
import proofs.«130601_j54795192762843_2_alg».proof.Proof.Gen.KernelIdeal.Frame
import proofs.«130601_j54795192762843_2_alg».proof.Proof.Layout

import Idealize.ShloMosaic.Lib.Pipeline.Value
import Idealize.ShloMosaic.Lib.ValueIdx
import Idealize.ShloMosaic.Lib.ValueLayout

noncomputable section

namespace Cert.KernelIdeal.Point

open Cert.KernelIdeal Cert.KernelIdeal.Gen Idealize.ShloMosaic Idealize.ShloMosaic.ValueIdx Cert.Contract

/-- Every index of a `[1, 512, 128]` slab is `(u, p, q)`. -/
theorem slab_idx (x : S1x512x128.Idx) : ∃ (u : Fin 1) (p : Fin 512) (q : Fin 128), x = ix3 u p q := ⟨x 0, x 1, x 2, eq_ix3 x⟩

/-- Slab `k` of a `[3, 512, 128]` block, loaded, reads the block at component `k`. -/
theorem ld_slab3 (x0 : Vec Ideal S3x512x128 .f32) (k : ℕ) (hk : k < 3) (inb) (u : Fin 1) (p : Fin 512) (q : Fin 128) :
    View.ld x0 (Rect.unit (s := S3x512x128) ![k, 0, 0] S1x512x128.size inb) (ix3 u p q) = x0 (ix3 ⟨k, hk⟩ p q) := by
  show x0 _ = x0 _
  congr 1
  funext a
  apply Fin.ext
  match a with
  | ⟨0, _⟩ => show k + 1 * u.val = k; omega
  | ⟨1, _⟩ => show 0 + 1 * p.val = p.val; omega
  | ⟨2, _⟩ => show 0 + 1 * q.val = q.val; omega

/-- Slab `k` of a `[9, 512, 128]` block, loaded, reads the block at component `k`. -/
theorem ld_slab9 (x1 : Vec Ideal S9x512x128 .f32) (k : ℕ) (hk : k < 9) (inb) (u : Fin 1) (p : Fin 512) (q : Fin 128) :
    View.ld x1 (Rect.unit (s := S9x512x128) ![k, 0, 0] S1x512x128.size inb) (ix3 u p q) = x1 (ix3 ⟨k, hk⟩ p q) := by
  show x1 _ = x1 _
  congr 1
  funext a
  apply Fin.ext
  match a with
  | ⟨0, _⟩ => show k + 1 * u.val = k; omega
  | ⟨1, _⟩ => show 0 + 1 * p.val = p.val; omega
  | ⟨2, _⟩ => show 0 + 1 * q.val = q.val; omega

theorem ld_m0 (x0 : Vec Ideal S3x512x128 .f32) (u : Fin 1) (p : Fin 512) (q : Fin 128) :
    View.ld x0 r0_0 (ix3 u p q) = x0 (ix3 (0 : Fin 3) p q) := ld_slab3 x0 0 (by omega) _ u p q
theorem ld_m1 (x0 : Vec Ideal S3x512x128 .f32) (u : Fin 1) (p : Fin 512) (q : Fin 128) :
    View.ld x0 r0_1 (ix3 u p q) = x0 (ix3 (1 : Fin 3) p q) := ld_slab3 x0 1 (by omega) _ u p q
theorem ld_m2 (x0 : Vec Ideal S3x512x128 .f32) (u : Fin 1) (p : Fin 512) (q : Fin 128) :
    View.ld x0 r0_2 (ix3 u p q) = x0 (ix3 (2 : Fin 3) p q) := ld_slab3 x0 2 (by omega) _ u p q
theorem ld_c0 (x1 : Vec Ideal S9x512x128 .f32) (u : Fin 1) (p : Fin 512) (q : Fin 128) :
    View.ld x1 r0_3 (ix3 u p q) = x1 (ix3 (flat 0 0) p q) := ld_slab9 x1 0 (by omega) _ u p q
theorem ld_c1 (x1 : Vec Ideal S9x512x128 .f32) (u : Fin 1) (p : Fin 512) (q : Fin 128) :
    View.ld x1 r0_4 (ix3 u p q) = x1 (ix3 (flat 0 1) p q) := ld_slab9 x1 1 (by omega) _ u p q
theorem ld_c2 (x1 : Vec Ideal S9x512x128 .f32) (u : Fin 1) (p : Fin 512) (q : Fin 128) :
    View.ld x1 r0_5 (ix3 u p q) = x1 (ix3 (flat 0 2) p q) := ld_slab9 x1 2 (by omega) _ u p q
theorem ld_c3 (x1 : Vec Ideal S9x512x128 .f32) (u : Fin 1) (p : Fin 512) (q : Fin 128) :
    View.ld x1 r0_6 (ix3 u p q) = x1 (ix3 (flat 1 0) p q) := ld_slab9 x1 3 (by omega) _ u p q
theorem ld_c4 (x1 : Vec Ideal S9x512x128 .f32) (u : Fin 1) (p : Fin 512) (q : Fin 128) :
    View.ld x1 r0_7 (ix3 u p q) = x1 (ix3 (flat 1 1) p q) := ld_slab9 x1 4 (by omega) _ u p q
theorem ld_c5 (x1 : Vec Ideal S9x512x128 .f32) (u : Fin 1) (p : Fin 512) (q : Fin 128) :
    View.ld x1 r0_8 (ix3 u p q) = x1 (ix3 (flat 1 2) p q) := ld_slab9 x1 5 (by omega) _ u p q
theorem ld_c6 (x1 : Vec Ideal S9x512x128 .f32) (u : Fin 1) (p : Fin 512) (q : Fin 128) :
    View.ld x1 r0_9 (ix3 u p q) = x1 (ix3 (flat 2 0) p q) := ld_slab9 x1 6 (by omega) _ u p q
theorem ld_c7 (x1 : Vec Ideal S9x512x128 .f32) (u : Fin 1) (p : Fin 512) (q : Fin 128) :
    View.ld x1 r0_10 (ix3 u p q) = x1 (ix3 (flat 2 1) p q) := ld_slab9 x1 7 (by omega) _ u p q
theorem ld_c8 (x1 : Vec Ideal S9x512x128 .f32) (u : Fin 1) (p : Fin 512) (q : Fin 128) :
    View.ld x1 r0_11 (ix3 u p q) = x1 (ix3 (flat 2 2) p q) := ld_slab9 x1 8 (by omega) _ u p q

/-! ## The stored slabs -/

/-- Slab 0 of the mean output. -/
theorem mean_piece0 (x0 : Vec Ideal S3x512x128 .f32) (x1 : Vec Ideal S9x512x128 .f32) (u : Fin 1) (p : Fin 512) (q : Fin 128) :
    (k0_pay12 (View.ld x0 r0_0) (View.ld x0 r0_1) (View.ld x0 r0_2)) (ix3 u p q) = soaMean x0 0 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2]
  rfl

/-- Slab 1 of the mean output. -/
theorem mean_piece1 (x0 : Vec Ideal S3x512x128 .f32) (x1 : Vec Ideal S9x512x128 .f32) (u : Fin 1) (p : Fin 512) (q : Fin 128) :
    (k0_pay14 (k0_pay13 (View.ld x0 r0_0) (View.ld x0 r0_1) (View.ld x0 r0_2))) (ix3 u p q) = soaMean x0 1 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2]
  rfl

/-- Slab 2 of the mean output. -/
theorem mean_piece2 (x0 : Vec Ideal S3x512x128 .f32) (x1 : Vec Ideal S9x512x128 .f32) (u : Fin 1) (p : Fin 512) (q : Fin 128) :
    (k0_pay15 (k0_pay4 (View.ld x0 r0_2)) (k0_pay8 (View.ld x0 r0_0) (View.ld x0 r0_1) (View.ld x0 r0_2)) (k0_pay10 (View.ld x0 r0_0) (View.ld x0 r0_1) (View.ld x0 r0_2))) (ix3 u p q) = soaMean x0 2 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2]
  rfl

/-- Slab 0 of the covariance output: entry (0, 0). -/
theorem cov_piece0 (x0 : Vec Ideal S3x512x128 .f32) (x1 : Vec Ideal S9x512x128 .f32) (u : Fin 1) (p : Fin 512) (q : Fin 128) :
    (k0_pay36 (k0_pay2 (View.ld x0 r0_0)) (k0_pay3 (View.ld x0 r0_1)) (k0_pay4 (View.ld x0 r0_2)) (k0_pay8 (View.ld x0 r0_0) (View.ld x0 r0_1) (View.ld x0 r0_2)) (k0_pay9 (View.ld x0 r0_0) (View.ld x0 r0_1) (View.ld x0 r0_2)) (k0_pay11 (View.ld x0 r0_0) (View.ld x0 r0_1) (View.ld x0 r0_2)) (k0_pay16 (View.ld x1 r0_3)) (k0_pay18 (View.ld x1 r0_5)) (k0_pay19 (View.ld x1 r0_6)) (k0_pay20 (View.ld x1 r0_7)) (k0_pay21 (View.ld x1 r0_8)) (k0_pay22 (View.ld x1 r0_9)) (k0_pay23 (View.ld x1 r0_10)) (k0_pay24 (View.ld x1 r0_11)) (k0_pay25 (k0_pay2 (View.ld x0 r0_0)) (k0_pay3 (View.ld x0 r0_1)) (View.ld x1 r0_3) (View.ld x1 r0_4))) (ix3 u p q) = soaCov x0 x1 0 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2, ld_c0, ld_c1, ld_c2, ld_c3, ld_c4, ld_c5, ld_c6, ld_c7, ld_c8]
  rfl

/-- Slab 1 of the covariance output: entry (0, 1). -/
theorem cov_piece1 (x0 : Vec Ideal S3x512x128 .f32) (x1 : Vec Ideal S9x512x128 .f32) (u : Fin 1) (p : Fin 512) (q : Fin 128) :
    (k0_pay39 (k0_pay2 (View.ld x0 r0_0)) (k0_pay3 (View.ld x0 r0_1)) (k0_pay11 (View.ld x0 r0_0) (View.ld x0 r0_1) (View.ld x0 r0_2)) (k0_pay17 (View.ld x1 r0_4)) (k0_pay37 (k0_pay2 (View.ld x0 r0_0)) (k0_pay3 (View.ld x0 r0_1)) (k0_pay4 (View.ld x0 r0_2)) (k0_pay8 (View.ld x0 r0_0) (View.ld x0 r0_1) (View.ld x0 r0_2)) (k0_pay9 (View.ld x0 r0_0) (View.ld x0 r0_1) (View.ld x0 r0_2)) (k0_pay17 (View.ld x1 r0_4)) (k0_pay18 (View.ld x1 r0_5)) (k0_pay20 (View.ld x1 r0_7)) (k0_pay23 (View.ld x1 r0_10)) (k0_pay25 (k0_pay2 (View.ld x0 r0_0)) (k0_pay3 (View.ld x0 r0_1)) (View.ld x1 r0_3) (View.ld x1 r0_4))) (k0_pay38 (k0_pay2 (View.ld x0 r0_0)) (k0_pay3 (View.ld x0 r0_1)) (k0_pay4 (View.ld x0 r0_2)) (k0_pay9 (View.ld x0 r0_0) (View.ld x0 r0_1) (View.ld x0 r0_2)) (k0_pay18 (View.ld x1 r0_5)) (k0_pay19 (View.ld x1 r0_6)) (k0_pay20 (View.ld x1 r0_7)) (k0_pay21 (View.ld x1 r0_8)) (k0_pay22 (View.ld x1 r0_9)) (k0_pay23 (View.ld x1 r0_10)) (k0_pay24 (View.ld x1 r0_11)) (k0_pay25 (k0_pay2 (View.ld x0 r0_0)) (k0_pay3 (View.ld x0 r0_1)) (View.ld x1 r0_3) (View.ld x1 r0_4)))) (ix3 u p q) = soaCov x0 x1 1 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2, ld_c0, ld_c1, ld_c2, ld_c3, ld_c4, ld_c5, ld_c6, ld_c7, ld_c8]
  rfl

/-- Slab 2 of the covariance output: entry (0, 2). -/
theorem cov_piece2 (x0 : Vec Ideal S3x512x128 .f32) (x1 : Vec Ideal S9x512x128 .f32) (u : Fin 1) (p : Fin 512) (q : Fin 128) :
    (k0_pay40 (k0_pay2 (View.ld x0 r0_0)) (k0_pay4 (View.ld x0 r0_2)) (k0_pay11 (View.ld x0 r0_0) (View.ld x0 r0_1) (View.ld x0 r0_2)) (k0_pay18 (View.ld x1 r0_5)) (k0_pay26 (k0_pay4 (View.ld x0 r0_2)) (k0_pay18 (View.ld x1 r0_5)) (k0_pay25 (k0_pay2 (View.ld x0 r0_0)) (k0_pay3 (View.ld x0 r0_1)) (View.ld x1 r0_3) (View.ld x1 r0_4))) (k0_pay31 (k0_pay2 (View.ld x0 r0_0)) (k0_pay3 (View.ld x0 r0_1)) (k0_pay4 (View.ld x0 r0_2)) (k0_pay18 (View.ld x1 r0_5)) (k0_pay21 (View.ld x1 r0_8)) (k0_pay24 (View.ld x1 r0_11))) (k0_pay32 (k0_pay2 (View.ld x0 r0_0)) (k0_pay3 (View.ld x0 r0_1)) (k0_pay4 (View.ld x0 r0_2)) (k0_pay18 (View.ld x1 r0_5)) (k0_pay19 (View.ld x1 r0_6)) (k0_pay20 (View.ld x1 r0_7)) (k0_pay21 (View.ld x1 r0_8)) (k0_pay22 (View.ld x1 r0_9)) (k0_pay23 (View.ld x1 r0_10)) (k0_pay24 (View.ld x1 r0_11)) (k0_pay25 (k0_pay2 (View.ld x0 r0_0)) (k0_pay3 (View.ld x0 r0_1)) (View.ld x1 r0_3) (View.ld x1 r0_4))) (k0_pay33 (k0_pay8 (View.ld x0 r0_0) (View.ld x0 r0_1) (View.ld x0 r0_2))) (k0_pay34 (k0_pay8 (View.ld x0 r0_0) (View.ld x0 r0_1) (View.ld x0 r0_2)) (k0_pay9 (View.ld x0 r0_0) (View.ld x0 r0_1) (View.ld x0 r0_2))) (k0_pay35 (k0_pay9 (View.ld x0 r0_0) (View.ld x0 r0_1) (View.ld x0 r0_2)))) (ix3 u p q) = soaCov x0 x1 2 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2, ld_c0, ld_c1, ld_c2, ld_c3, ld_c4, ld_c5, ld_c6, ld_c7, ld_c8]
  rfl

/-- Slab 3 of the covariance output: entry (1, 0). -/
theorem cov_piece3 (x0 : Vec Ideal S3x512x128 .f32) (x1 : Vec Ideal S9x512x128 .f32) (u : Fin 1) (p : Fin 512) (q : Fin 128) :
    (k0_pay41 (k0_pay2 (View.ld x0 r0_0)) (k0_pay3 (View.ld x0 r0_1)) (k0_pay11 (View.ld x0 r0_0) (View.ld x0 r0_1) (View.ld x0 r0_2)) (k0_pay19 (View.ld x1 r0_6)) (k0_pay27 (k0_pay2 (View.ld x0 r0_0)) (k0_pay3 (View.ld x0 r0_1)) (k0_pay4 (View.ld x0 r0_2)) (k0_pay19 (View.ld x1 r0_6)) (k0_pay20 (View.ld x1 r0_7)) (k0_pay21 (View.ld x1 r0_8))) (k0_pay29 (k0_pay2 (View.ld x0 r0_0)) (k0_pay3 (View.ld x0 r0_1)) (k0_pay4 (View.ld x0 r0_2)) (k0_pay16 (View.ld x1 r0_3)) (k0_pay19 (View.ld x1 r0_6)) (k0_pay22 (View.ld x1 r0_9))) (k0_pay32 (k0_pay2 (View.ld x0 r0_0)) (k0_pay3 (View.ld x0 r0_1)) (k0_pay4 (View.ld x0 r0_2)) (k0_pay18 (View.ld x1 r0_5)) (k0_pay19 (View.ld x1 r0_6)) (k0_pay20 (View.ld x1 r0_7)) (k0_pay21 (View.ld x1 r0_8)) (k0_pay22 (View.ld x1 r0_9)) (k0_pay23 (View.ld x1 r0_10)) (k0_pay24 (View.ld x1 r0_11)) (k0_pay25 (k0_pay2 (View.ld x0 r0_0)) (k0_pay3 (View.ld x0 r0_1)) (View.ld x1 r0_3) (View.ld x1 r0_4))) (k0_pay33 (k0_pay8 (View.ld x0 r0_0) (View.ld x0 r0_1) (View.ld x0 r0_2))) (k0_pay34 (k0_pay8 (View.ld x0 r0_0) (View.ld x0 r0_1) (View.ld x0 r0_2)) (k0_pay9 (View.ld x0 r0_0) (View.ld x0 r0_1) (View.ld x0 r0_2))) (k0_pay35 (k0_pay9 (View.ld x0 r0_0) (View.ld x0 r0_1) (View.ld x0 r0_2)))) (ix3 u p q) = soaCov x0 x1 3 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2, ld_c0, ld_c1, ld_c2, ld_c3, ld_c4, ld_c5, ld_c6, ld_c7, ld_c8]
  rfl

/-- Slab 4 of the covariance output: entry (1, 1). -/
theorem cov_piece4 (x0 : Vec Ideal S3x512x128 .f32) (x1 : Vec Ideal S9x512x128 .f32) (u : Fin 1) (p : Fin 512) (q : Fin 128) :
    (k0_pay43 (k0_pay42 (k0_pay3 (View.ld x0 r0_1)) (k0_pay11 (View.ld x0 r0_0) (View.ld x0 r0_1) (View.ld x0 r0_2)) (k0_pay20 (View.ld x1 r0_7)) (k0_pay27 (k0_pay2 (View.ld x0 r0_0)) (k0_pay3 (View.ld x0 r0_1)) (k0_pay4 (View.ld x0 r0_2)) (k0_pay19 (View.ld x1 r0_6)) (k0_pay20 (View.ld x1 r0_7)) (k0_pay21 (View.ld x1 r0_8))) (k0_pay30 (k0_pay2 (View.ld x0 r0_0)) (k0_pay3 (View.ld x0 r0_1)) (k0_pay4 (View.ld x0 r0_2)) (k0_pay17 (View.ld x1 r0_4)) (k0_pay20 (View.ld x1 r0_7)) (k0_pay23 (View.ld x1 r0_10))) (k0_pay32 (k0_pay2 (View.ld x0 r0_0)) (k0_pay3 (View.ld x0 r0_1)) (k0_pay4 (View.ld x0 r0_2)) (k0_pay18 (View.ld x1 r0_5)) (k0_pay19 (View.ld x1 r0_6)) (k0_pay20 (View.ld x1 r0_7)) (k0_pay21 (View.ld x1 r0_8)) (k0_pay22 (View.ld x1 r0_9)) (k0_pay23 (View.ld x1 r0_10)) (k0_pay24 (View.ld x1 r0_11)) (k0_pay25 (k0_pay2 (View.ld x0 r0_0)) (k0_pay3 (View.ld x0 r0_1)) (View.ld x1 r0_3) (View.ld x1 r0_4))) (k0_pay33 (k0_pay8 (View.ld x0 r0_0) (View.ld x0 r0_1) (View.ld x0 r0_2))) (k0_pay34 (k0_pay8 (View.ld x0 r0_0) (View.ld x0 r0_1) (View.ld x0 r0_2)) (k0_pay9 (View.ld x0 r0_0) (View.ld x0 r0_1) (View.ld x0 r0_2))) (k0_pay35 (k0_pay9 (View.ld x0 r0_0) (View.ld x0 r0_1) (View.ld x0 r0_2))))) (ix3 u p q) = soaCov x0 x1 4 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2, ld_c0, ld_c1, ld_c2, ld_c3, ld_c4, ld_c5, ld_c6, ld_c7, ld_c8]
  rfl

/-- Slab 5 of the covariance output: entry (1, 2). -/
theorem cov_piece5 (x0 : Vec Ideal S3x512x128 .f32) (x1 : Vec Ideal S9x512x128 .f32) (u : Fin 1) (p : Fin 512) (q : Fin 128) :
    (k0_pay44 (k0_pay3 (View.ld x0 r0_1)) (k0_pay4 (View.ld x0 r0_2)) (k0_pay11 (View.ld x0 r0_0) (View.ld x0 r0_1) (View.ld x0 r0_2)) (k0_pay21 (View.ld x1 r0_8)) (k0_pay27 (k0_pay2 (View.ld x0 r0_0)) (k0_pay3 (View.ld x0 r0_1)) (k0_pay4 (View.ld x0 r0_2)) (k0_pay19 (View.ld x1 r0_6)) (k0_pay20 (View.ld x1 r0_7)) (k0_pay21 (View.ld x1 r0_8))) (k0_pay31 (k0_pay2 (View.ld x0 r0_0)) (k0_pay3 (View.ld x0 r0_1)) (k0_pay4 (View.ld x0 r0_2)) (k0_pay18 (View.ld x1 r0_5)) (k0_pay21 (View.ld x1 r0_8)) (k0_pay24 (View.ld x1 r0_11))) (k0_pay32 (k0_pay2 (View.ld x0 r0_0)) (k0_pay3 (View.ld x0 r0_1)) (k0_pay4 (View.ld x0 r0_2)) (k0_pay18 (View.ld x1 r0_5)) (k0_pay19 (View.ld x1 r0_6)) (k0_pay20 (View.ld x1 r0_7)) (k0_pay21 (View.ld x1 r0_8)) (k0_pay22 (View.ld x1 r0_9)) (k0_pay23 (View.ld x1 r0_10)) (k0_pay24 (View.ld x1 r0_11)) (k0_pay25 (k0_pay2 (View.ld x0 r0_0)) (k0_pay3 (View.ld x0 r0_1)) (View.ld x1 r0_3) (View.ld x1 r0_4))) (k0_pay33 (k0_pay8 (View.ld x0 r0_0) (View.ld x0 r0_1) (View.ld x0 r0_2))) (k0_pay34 (k0_pay8 (View.ld x0 r0_0) (View.ld x0 r0_1) (View.ld x0 r0_2)) (k0_pay9 (View.ld x0 r0_0) (View.ld x0 r0_1) (View.ld x0 r0_2))) (k0_pay35 (k0_pay9 (View.ld x0 r0_0) (View.ld x0 r0_1) (View.ld x0 r0_2)))) (ix3 u p q) = soaCov x0 x1 5 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2, ld_c0, ld_c1, ld_c2, ld_c3, ld_c4, ld_c5, ld_c6, ld_c7, ld_c8]
  rfl

/-- Slab 6 of the covariance output: entry (2, 0). -/
theorem cov_piece6 (x0 : Vec Ideal S3x512x128 .f32) (x1 : Vec Ideal S9x512x128 .f32) (u : Fin 1) (p : Fin 512) (q : Fin 128) :
    (k0_pay45 (k0_pay2 (View.ld x0 r0_0)) (k0_pay4 (View.ld x0 r0_2)) (k0_pay11 (View.ld x0 r0_0) (View.ld x0 r0_1) (View.ld x0 r0_2)) (k0_pay22 (View.ld x1 r0_9)) (k0_pay28 (k0_pay2 (View.ld x0 r0_0)) (k0_pay3 (View.ld x0 r0_1)) (k0_pay4 (View.ld x0 r0_2)) (k0_pay22 (View.ld x1 r0_9)) (k0_pay23 (View.ld x1 r0_10)) (k0_pay24 (View.ld x1 r0_11))) (k0_pay29 (k0_pay2 (View.ld x0 r0_0)) (k0_pay3 (View.ld x0 r0_1)) (k0_pay4 (View.ld x0 r0_2)) (k0_pay16 (View.ld x1 r0_3)) (k0_pay19 (View.ld x1 r0_6)) (k0_pay22 (View.ld x1 r0_9))) (k0_pay32 (k0_pay2 (View.ld x0 r0_0)) (k0_pay3 (View.ld x0 r0_1)) (k0_pay4 (View.ld x0 r0_2)) (k0_pay18 (View.ld x1 r0_5)) (k0_pay19 (View.ld x1 r0_6)) (k0_pay20 (View.ld x1 r0_7)) (k0_pay21 (View.ld x1 r0_8)) (k0_pay22 (View.ld x1 r0_9)) (k0_pay23 (View.ld x1 r0_10)) (k0_pay24 (View.ld x1 r0_11)) (k0_pay25 (k0_pay2 (View.ld x0 r0_0)) (k0_pay3 (View.ld x0 r0_1)) (View.ld x1 r0_3) (View.ld x1 r0_4))) (k0_pay33 (k0_pay8 (View.ld x0 r0_0) (View.ld x0 r0_1) (View.ld x0 r0_2))) (k0_pay34 (k0_pay8 (View.ld x0 r0_0) (View.ld x0 r0_1) (View.ld x0 r0_2)) (k0_pay9 (View.ld x0 r0_0) (View.ld x0 r0_1) (View.ld x0 r0_2))) (k0_pay35 (k0_pay9 (View.ld x0 r0_0) (View.ld x0 r0_1) (View.ld x0 r0_2)))) (ix3 u p q) = soaCov x0 x1 6 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2, ld_c0, ld_c1, ld_c2, ld_c3, ld_c4, ld_c5, ld_c6, ld_c7, ld_c8]
  rfl

/-- Slab 7 of the covariance output: entry (2, 1). -/
theorem cov_piece7 (x0 : Vec Ideal S3x512x128 .f32) (x1 : Vec Ideal S9x512x128 .f32) (u : Fin 1) (p : Fin 512) (q : Fin 128) :
    (k0_pay46 (k0_pay3 (View.ld x0 r0_1)) (k0_pay4 (View.ld x0 r0_2)) (k0_pay11 (View.ld x0 r0_0) (View.ld x0 r0_1) (View.ld x0 r0_2)) (k0_pay23 (View.ld x1 r0_10)) (k0_pay28 (k0_pay2 (View.ld x0 r0_0)) (k0_pay3 (View.ld x0 r0_1)) (k0_pay4 (View.ld x0 r0_2)) (k0_pay22 (View.ld x1 r0_9)) (k0_pay23 (View.ld x1 r0_10)) (k0_pay24 (View.ld x1 r0_11))) (k0_pay30 (k0_pay2 (View.ld x0 r0_0)) (k0_pay3 (View.ld x0 r0_1)) (k0_pay4 (View.ld x0 r0_2)) (k0_pay17 (View.ld x1 r0_4)) (k0_pay20 (View.ld x1 r0_7)) (k0_pay23 (View.ld x1 r0_10))) (k0_pay32 (k0_pay2 (View.ld x0 r0_0)) (k0_pay3 (View.ld x0 r0_1)) (k0_pay4 (View.ld x0 r0_2)) (k0_pay18 (View.ld x1 r0_5)) (k0_pay19 (View.ld x1 r0_6)) (k0_pay20 (View.ld x1 r0_7)) (k0_pay21 (View.ld x1 r0_8)) (k0_pay22 (View.ld x1 r0_9)) (k0_pay23 (View.ld x1 r0_10)) (k0_pay24 (View.ld x1 r0_11)) (k0_pay25 (k0_pay2 (View.ld x0 r0_0)) (k0_pay3 (View.ld x0 r0_1)) (View.ld x1 r0_3) (View.ld x1 r0_4))) (k0_pay33 (k0_pay8 (View.ld x0 r0_0) (View.ld x0 r0_1) (View.ld x0 r0_2))) (k0_pay34 (k0_pay8 (View.ld x0 r0_0) (View.ld x0 r0_1) (View.ld x0 r0_2)) (k0_pay9 (View.ld x0 r0_0) (View.ld x0 r0_1) (View.ld x0 r0_2))) (k0_pay35 (k0_pay9 (View.ld x0 r0_0) (View.ld x0 r0_1) (View.ld x0 r0_2)))) (ix3 u p q) = soaCov x0 x1 7 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2, ld_c0, ld_c1, ld_c2, ld_c3, ld_c4, ld_c5, ld_c6, ld_c7, ld_c8]
  rfl

/-- Slab 8 of the covariance output: entry (2, 2). -/
theorem cov_piece8 (x0 : Vec Ideal S3x512x128 .f32) (x1 : Vec Ideal S9x512x128 .f32) (u : Fin 1) (p : Fin 512) (q : Fin 128) :
    (k0_pay1 (k0_pay4 (View.ld x0 r0_2)) (k0_pay11 (View.ld x0 r0_0) (View.ld x0 r0_1) (View.ld x0 r0_2)) (k0_pay24 (View.ld x1 r0_11)) (k0_pay28 (k0_pay2 (View.ld x0 r0_0)) (k0_pay3 (View.ld x0 r0_1)) (k0_pay4 (View.ld x0 r0_2)) (k0_pay22 (View.ld x1 r0_9)) (k0_pay23 (View.ld x1 r0_10)) (k0_pay24 (View.ld x1 r0_11))) (k0_pay31 (k0_pay2 (View.ld x0 r0_0)) (k0_pay3 (View.ld x0 r0_1)) (k0_pay4 (View.ld x0 r0_2)) (k0_pay18 (View.ld x1 r0_5)) (k0_pay21 (View.ld x1 r0_8)) (k0_pay24 (View.ld x1 r0_11))) (k0_pay32 (k0_pay2 (View.ld x0 r0_0)) (k0_pay3 (View.ld x0 r0_1)) (k0_pay4 (View.ld x0 r0_2)) (k0_pay18 (View.ld x1 r0_5)) (k0_pay19 (View.ld x1 r0_6)) (k0_pay20 (View.ld x1 r0_7)) (k0_pay21 (View.ld x1 r0_8)) (k0_pay22 (View.ld x1 r0_9)) (k0_pay23 (View.ld x1 r0_10)) (k0_pay24 (View.ld x1 r0_11)) (k0_pay25 (k0_pay2 (View.ld x0 r0_0)) (k0_pay3 (View.ld x0 r0_1)) (View.ld x1 r0_3) (View.ld x1 r0_4))) (k0_pay34 (k0_pay8 (View.ld x0 r0_0) (View.ld x0 r0_1) (View.ld x0 r0_2)) (k0_pay9 (View.ld x0 r0_0) (View.ld x0 r0_1) (View.ld x0 r0_2))) (k0_pay35 (k0_pay9 (View.ld x0 r0_0) (View.ld x0 r0_1) (View.ld x0 r0_2))) (k0_pay47 (k0_pay24 (View.ld x1 r0_11)) (k0_pay33 (k0_pay8 (View.ld x0 r0_0) (View.ld x0 r0_1) (View.ld x0 r0_2))))) (ix3 u p q) = soaCov x0 x1 8 p q := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, select, mulf, addf, subf, divf, sqrt, cmpf, broadcast, shapeCast_ab_1ab_apply, shapeCast_1ab_ab_apply]
  rw [ld_m0, ld_m1, ld_m2, ld_c0, ld_c1, ld_c2, ld_c3, ld_c4, ld_c5, ld_c6, ld_c7, ld_c8]
  rfl

end Cert.KernelIdeal.Point

end
-- ==== Proof.KernelBlock.lean ====
/-
  The two output blocks of one grid point as functions of the two input blocks: the stores of the body are slabs of ONE
  function of the block index each — the contracted mean, respectively covariance, of the sample at (row, lane), by
  component — and the slabs tile the block.
-/
import proofs.«130601_j54795192762843_2_alg».proof.Proof.Gen.KernelIdeal.Frame
import proofs.«130601_j54795192762843_2_alg».proof.Proof.Layout
import proofs.«130601_j54795192762843_2_alg».proof.Proof.KernelPoint
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx Cert.Contract

/-- Position `(u, p, q)` of slab `k` of a `[3, 512, 128]` block is the block's index `(k, p, q)`. -/
theorem emb_slab3 (k : ℕ) (hk : k < 3) (inb) (u : Fin 1) (p : Fin 512) (q : Fin 128) :
    (Rect.unit (s := S3x512x128) ![k, 0, 0] S1x512x128.size inb).emb (ix3 u p q) = ix3 ⟨k, hk⟩ p q := by
  funext a
  apply Fin.ext
  match a with
  | ⟨0, _⟩ => show k + 1 * u.val = k; omega
  | ⟨1, _⟩ => show 0 + 1 * p.val = p.val; omega
  | ⟨2, _⟩ => show 0 + 1 * q.val = q.val; omega

/-- Position `(u, p, q)` of slab `k` of a `[9, 512, 128]` block is the block's index `(k, p, q)`. -/
theorem emb_slab9 (k : ℕ) (hk : k < 9) (inb) (u : Fin 1) (p : Fin 512) (q : Fin 128) :
    (Rect.unit (s := S9x512x128) ![k, 0, 0] S1x512x128.size inb).emb (ix3 u p q) = ix3 ⟨k, hk⟩ p q := by
  funext a
  apply Fin.ext
  match a with
  | ⟨0, _⟩ => show k + 1 * u.val = k; omega
  | ⟨1, _⟩ => show 0 + 1 * p.val = p.val; omega
  | ⟨2, _⟩ => show 0 + 1 * q.val = q.val; omega

theorem emb_m0 (u : Fin 1) (p : Fin 512) (q : Fin 128) : r0_0.emb (ix3 u p q) = ix3 (0 : Fin 3) p q := emb_slab3 0 (by omega) _ u p q
theorem emb_m1 (u : Fin 1) (p : Fin 512) (q : Fin 128) : r0_1.emb (ix3 u p q) = ix3 (1 : Fin 3) p q := emb_slab3 1 (by omega) _ u p q
theorem emb_m2 (u : Fin 1) (p : Fin 512) (q : Fin 128) : r0_2.emb (ix3 u p q) = ix3 (2 : Fin 3) p q := emb_slab3 2 (by omega) _ u p q
theorem emb_c0 (u : Fin 1) (p : Fin 512) (q : Fin 128) : r0_3.emb (ix3 u p q) = ix3 (0 : Fin 9) p q := emb_slab9 0 (by omega) _ u p q
theorem emb_c1 (u : Fin 1) (p : Fin 512) (q : Fin 128) : r0_4.emb (ix3 u p q) = ix3 (1 : Fin 9) p q := emb_slab9 1 (by omega) _ u p q
theorem emb_c2 (u : Fin 1) (p : Fin 512) (q : Fin 128) : r0_5.emb (ix3 u p q) = ix3 (2 : Fin 9) p q := emb_slab9 2 (by omega) _ u p q
theorem emb_c3 (u : Fin 1) (p : Fin 512) (q : Fin 128) : r0_6.emb (ix3 u p q) = ix3 (3 : Fin 9) p q := emb_slab9 3 (by omega) _ u p q
theorem emb_c4 (u : Fin 1) (p : Fin 512) (q : Fin 128) : r0_7.emb (ix3 u p q) = ix3 (4 : Fin 9) p q := emb_slab9 4 (by omega) _ u p q
theorem emb_c5 (u : Fin 1) (p : Fin 512) (q : Fin 128) : r0_8.emb (ix3 u p q) = ix3 (5 : Fin 9) p q := emb_slab9 5 (by omega) _ u p q
theorem emb_c6 (u : Fin 1) (p : Fin 512) (q : Fin 128) : r0_9.emb (ix3 u p q) = ix3 (6 : Fin 9) p q := emb_slab9 6 (by omega) _ u p q
theorem emb_c7 (u : Fin 1) (p : Fin 512) (q : Fin 128) : r0_10.emb (ix3 u p q) = ix3 (7 : Fin 9) p q := emb_slab9 7 (by omega) _ u p q
theorem emb_c8 (u : Fin 1) (p : Fin 512) (q : Fin 128) : r0_11.emb (ix3 u p q) = ix3 (8 : Fin 9) p q := emb_slab9 8 (by omega) _ u p q

/-- The mean output block: at `(a, p, q)` component `a` of the contracted mean of the sample at `(p, q)`. -/
theorem out2_eq (x0 : Vec Ideal S3x512x128 .f32) (x1 : Vec Ideal S9x512x128 .f32) :
    out0_2 x0 x1 = fun y : S3x512x128.Idx => soaMean x0 (y 0) (y 1) (y 2) := by
  funext y
  unfold out0_2
  refine View.canon_apply_of_pieces (Val := Elt Ideal) (e := .f32) (fun y : S3x512x128.Idx => (soaMean x0 (y 0) (y 1) (y 2) : Elt Ideal .f32)) _ ?_ y (cover0_2 _ _ _ y)
  intro pc hpc
  simp only [List.mem_cons, List.not_mem_nil, or_false] at hpc
  rcases hpc with rfl | rfl | rfl
  · intro x
    obtain ⟨u, p, q, rfl⟩ := Point.slab_idx x
    refine (Point.mean_piece2 x0 x1 u p q).trans ?_
    show soaMean x0 2 p q = soaMean x0 ((r0_2.emb (ix3 u p q)) 0) ((r0_2.emb (ix3 u p q)) 1) ((r0_2.emb (ix3 u p q)) 2)
    rw [emb_m2]
  · intro x
    obtain ⟨u, p, q, rfl⟩ := Point.slab_idx x
    refine (Point.mean_piece1 x0 x1 u p q).trans ?_
    show soaMean x0 1 p q = soaMean x0 ((r0_1.emb (ix3 u p q)) 0) ((r0_1.emb (ix3 u p q)) 1) ((r0_1.emb (ix3 u p q)) 2)
    rw [emb_m1]
  · intro x
    obtain ⟨u, p, q, rfl⟩ := Point.slab_idx x
    refine (Point.mean_piece0 x0 x1 u p q).trans ?_
    show soaMean x0 0 p q = soaMean x0 ((r0_0.emb (ix3 u p q)) 0) ((r0_0.emb (ix3 u p q)) 1) ((r0_0.emb (ix3 u p q)) 2)
    rw [emb_m0]

/-- The covariance output block: at `(k, p, q)` component `k` of the contracted covariance of the sample at `(p, q)`. -/
theorem out3_eq (x0 : Vec Ideal S3x512x128 .f32) (x1 : Vec Ideal S9x512x128 .f32) :
    out0_3 x0 x1 = fun y : S9x512x128.Idx => soaCov x0 x1 (y 0) (y 1) (y 2) := by
  funext y
  unfold out0_3
  refine View.canon_apply_of_pieces (Val := Elt Ideal) (e := .f32) (fun y : S9x512x128.Idx => (soaCov x0 x1 (y 0) (y 1) (y 2) : Elt Ideal .f32)) _ ?_ y (cover0_3 _ _ _ _ _ _ _ _ _ y)
  intro pc hpc
  simp only [List.mem_cons, List.not_mem_nil, or_false] at hpc
  rcases hpc with rfl | rfl | rfl | rfl | rfl | rfl | rfl | rfl | rfl
  · intro x
    obtain ⟨u, p, q, rfl⟩ := Point.slab_idx x
    refine (Point.cov_piece8 x0 x1 u p q).trans ?_
    show soaCov x0 x1 8 p q = soaCov x0 x1 ((r0_11.emb (ix3 u p q)) 0) ((r0_11.emb (ix3 u p q)) 1) ((r0_11.emb (ix3 u p q)) 2)
    rw [emb_c8]
  · intro x
    obtain ⟨u, p, q, rfl⟩ := Point.slab_idx x
    refine (Point.cov_piece7 x0 x1 u p q).trans ?_
    show soaCov x0 x1 7 p q = soaCov x0 x1 ((r0_10.emb (ix3 u p q)) 0) ((r0_10.emb (ix3 u p q)) 1) ((r0_10.emb (ix3 u p q)) 2)
    rw [emb_c7]
  · intro x
    obtain ⟨u, p, q, rfl⟩ := Point.slab_idx x
    refine (Point.cov_piece6 x0 x1 u p q).trans ?_
    show soaCov x0 x1 6 p q = soaCov x0 x1 ((r0_9.emb (ix3 u p q)) 0) ((r0_9.emb (ix3 u p q)) 1) ((r0_9.emb (ix3 u p q)) 2)
    rw [emb_c6]
  · intro x
    obtain ⟨u, p, q, rfl⟩ := Point.slab_idx x
    refine (Point.cov_piece5 x0 x1 u p q).trans ?_
    show soaCov x0 x1 5 p q = soaCov x0 x1 ((r0_8.emb (ix3 u p q)) 0) ((r0_8.emb (ix3 u p q)) 1) ((r0_8.emb (ix3 u p q)) 2)
    rw [emb_c5]
  · intro x
    obtain ⟨u, p, q, rfl⟩ := Point.slab_idx x
    refine (Point.cov_piece4 x0 x1 u p q).trans ?_
    show soaCov x0 x1 4 p q = soaCov x0 x1 ((r0_7.emb (ix3 u p q)) 0) ((r0_7.emb (ix3 u p q)) 1) ((r0_7.emb (ix3 u p q)) 2)
    rw [emb_c4]
  · intro x
    obtain ⟨u, p, q, rfl⟩ := Point.slab_idx x
    refine (Point.cov_piece3 x0 x1 u p q).trans ?_
    show soaCov x0 x1 3 p q = soaCov x0 x1 ((r0_6.emb (ix3 u p q)) 0) ((r0_6.emb (ix3 u p q)) 1) ((r0_6.emb (ix3 u p q)) 2)
    rw [emb_c3]
  · intro x
    obtain ⟨u, p, q, rfl⟩ := Point.slab_idx x
    refine (Point.cov_piece2 x0 x1 u p q).trans ?_
    show soaCov x0 x1 2 p q = soaCov x0 x1 ((r0_5.emb (ix3 u p q)) 0) ((r0_5.emb (ix3 u p q)) 1) ((r0_5.emb (ix3 u p q)) 2)
    rw [emb_c2]
  · intro x
    obtain ⟨u, p, q, rfl⟩ := Point.slab_idx x
    refine (Point.cov_piece1 x0 x1 u p q).trans ?_
    show soaCov x0 x1 1 p q = soaCov x0 x1 ((r0_4.emb (ix3 u p q)) 0) ((r0_4.emb (ix3 u p q)) 1) ((r0_4.emb (ix3 u p q)) 2)
    rw [emb_c1]
  · intro x
    obtain ⟨u, p, q, rfl⟩ := Point.slab_idx x
    refine (Point.cov_piece0 x0 x1 u p q).trans ?_
    show soaCov x0 x1 0 p q = soaCov x0 x1 ((r0_3.emb (ix3 u p q)) 0) ((r0_3.emb (ix3 u p q)) 1) ((r0_3.emb (ix3 u p q)) 2)
    rw [emb_c0]

end Cert.KernelIdeal.Block

end
-- ==== Proof.KernelArrays.lean ====
/-
  From the blocks to the arrays.  The grid has 64 points; point `t` reads rows `512 t … 512 t + 511` of the two
  structure-of-arrays inputs (`[3, 32768, 128]` means, `[9, 32768, 128]` covariances) and writes the same rows of the two
  outputs.  Each written block is the block of ONE whole-array function — the contracted mean / covariance of the sample
  at (row, lane) — and the 64 blocks cover the arrays, so the arrays end holding those functions.
-/
import proofs.«130601_j54795192762843_2_alg».proof.Proof.Gen.KernelIdeal.Frame
import proofs.«130601_j54795192762843_2_alg».proof.Proof.Layout
import proofs.«130601_j54795192762843_2_alg».proof.Proof.KernelBlock
import Idealize.ShloMosaic.Lib.Pipeline.Value
import Idealize.ShloMosaic.Lib.ValueIdx
import Idealize.ShloMosaic.Lib.ValueLayout

noncomputable section

namespace Cert.KernelIdeal.Arrays

open Cert.KernelIdeal Cert.KernelIdeal.Gen Idealize.ShloMosaic Idealize.ShloMosaic.TcCoe Idealize.ShloMosaic.ValueIdx Cert.Contract
open Idealize.SL.Sem

variable (m : (ℓ : Loc nD τ sig) → Buf (Elt Ideal) ℓ)

/-- The index maps, decided over the grid: every window's block at point `t` is block `(0, t, 0)`. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

/-- Row `p` of point `t`'s block is row `512 t + p` of the array. -/
abbrev rowOf (t : Fin cfg0.N) (p : Fin 512) : Fin 32768 :=
  ⟨t.val * 512 + p.val, by have h := t.isLt; have hN : cfg0.N = 64 := N_0; omega⟩

/-- The mean input's block at point `t`, read at `(b, p, q)`. -/
theorem read_mean_blk (c : Dev nD) (t : Fin cfg0.N) (b : Fin 3) (p : Fin 512) (q : Fin 128) :
    iblk m c 0 t (ix3 b p q) = (V m c main_v2 : S3x32768x128.Idx → EReal) (ix3 b (rowOf t p) q) := by
  obtain ⟨e0, e1, e2, -⟩ := idx_facts t
  show V m c main_v2 (((cfg0.win 0).blk t).view.emb (ix3 b p q)) = V m c main_v2 _
  have h : ((cfg0.win 0).blk t).view.emb (ix3 b p q) = ix3 b (rowOf t p) q := by
    funext a; apply Fin.ext
    match a with
    | ⟨0, _⟩ => show win0_0.index t (0 : Fin 3) * 3 + 1 * b.val = b.val; omega
    | ⟨1, _⟩ => show win0_0.index t (1 : Fin 3) * 512 + 1 * p.val = t.val * 512 + p.val; omega
    | ⟨2, _⟩ => show win0_0.index t (2 : Fin 3) * 128 + 1 * q.val = q.val; omega
  rw [h]

/-- The covariance input's block at point `t`, read at `(k, p, q)`. -/
theorem read_cov_blk (c : Dev nD) (t : Fin cfg0.N) (k : Fin 9) (p : Fin 512) (q : Fin 128) :
    iblk m c 1 t (ix3 k p q) = (V m c main_v4 : S9x32768x128.Idx → EReal) (ix3 k (rowOf t p) q) := by
  obtain ⟨-, -, -, e0, e1, e2, -⟩ := idx_facts t
  show V m c main_v4 (((cfg0.win 1).blk t).view.emb (ix3 k p q)) = V m c main_v4 _
  have h : ((cfg0.win 1).blk t).view.emb (ix3 k p q) = ix3 k (rowOf t p) q := by
    funext a; apply Fin.ext
    match a with
    | ⟨0, _⟩ => show win0_1.index t (0 : Fin 3) * 9 + 1 * k.val = k.val; omega
    | ⟨1, _⟩ => show win0_1.index t (1 : Fin 3) * 512 + 1 * p.val = t.val * 512 + p.val; omega
    | ⟨2, _⟩ => show win0_1.index t (2 : Fin 3) * 128 + 1 * q.val = q.val; omega
  rw [h]

/-! ## The mean output -/

/-- The contracted means of all samples, in the structure-of-arrays layout, from the inputs as the region finds them. -/
abbrev meanArr (c : Dev nD) : S3x32768x128.Idx → Elt Ideal .f32 :=
  fun y => soaMean (V m c main_v2 : S3x32768x128.Idx → EReal) (y 0) (y 1) (y 2)

/-- Where the mean output's block at point `t` sits in its array. -/
theorem emb_out2 (t : Fin cfg0.N) (a : Fin 3) (p : Fin 512) (q : Fin 128) :
    ((cfg0.win 2).blk t).view.emb (ix3 a p q) = ix3 a (rowOf t p) q := by
  obtain ⟨-, -, -, -, -, -, e0, e1, e2, -⟩ := idx_facts t
  funext d; apply Fin.ext
  match d with
  | ⟨0, _⟩ => show win0_2.index t (0 : Fin 3) * 3 + 1 * a.val = a.val; omega
  | ⟨1, _⟩ => show win0_2.index t (1 : Fin 3) * 512 + 1 * p.val = t.val * 512 + p.val; omega
  | ⟨2, _⟩ => show win0_2.index t (2 : Fin 3) * 128 + 1 * q.val = q.val; omega

/-- What point `t` writes back to the mean output is block `t` of `meanArr`. -/
theorem flushed2_eq (c : Dev nD) (t : Fin cfg0.N) :
    (dats m 0 c).flushed 2 t = ((cfg0.win 2).blk t).view.read (Elt Ideal) (meanArr m c) := by
  show (cfg0.win 2).cut (grid0.coords t) ((dats m 0 c).after 2 t) = _
  rw [after0_2, Block.out2_eq]
  funext j
  obtain ⟨a, p, q, rfl⟩ : ∃ (a : Fin 3) (p : Fin 512) (q : Fin 128), j = ix3 a p q := ⟨j 0, j 1, j 2, eq_ix3 j⟩
  show soaMean (iblk m c 0 t) a p q = meanArr m c (((cfg0.win 2).blk t).view.emb (ix3 a p q))
  rw [emb_out2]
  show kMean (fun b => iblk m c 0 t (ix3 b p q)) a = kMean (fun b => (V m c main_v2 : S3x32768x128.Idx → EReal) (ix3 b (rowOf t p) q)) a
  simp only [read_mean_blk]

/-- An index of the mean output lies in point `t`'s block iff each coordinate lies in the block's range. -/
theorem mem_blk2 (t : Fin cfg0.N) (i : S3x32768x128.Idx) :
    i ∈ ((cfg0.win 2).blk t).view.set ↔ ∀ a : Fin 3, win0_2.index t a * S3x512x128.size a ≤ (i a).val ∧ (i a).val < win0_2.index t a * S3x512x128.size a + S3x512x128.size a := by
  show i ∈ ((View.whole main_v5_0).slice (win0_2.rect t)).set ↔ _
  rw [View.set_slice_whole, Rect.mem_set_unit]
  exact Iff.rfl

/-- Every index of the mean output is in the block of point `row / 512`. -/
theorem cover2 (i : S3x32768x128.Idx) : ∃ t : Fin cfg0.N, (cfg0.win 2).flush t = true ∧ i ∈ ((cfg0.win 2).blk t).view.set := by
  have hi0 : (i 0).val < 3 := (i 0).isLt
  have hi1 : (i 1).val < 32768 := (i 1).isLt
  have hi2 : (i 2).val < 128 := (i 2).isLt
  have hN : cfg0.N = 64 := N_0
  have ht : (i 1).val / 512 < cfg0.N := by omega
  obtain ⟨-, -, -, -, -, -, e0, e1, e2, -⟩ := idx_facts ⟨(i 1).val / 512, ht⟩
  refine ⟨⟨(i 1).val / 512, ht⟩, flush0_2 _, ?_⟩
  rw [mem_blk2]
  intro a
  match a with
  | ⟨0, _⟩ => show win0_2.index ⟨(i 1).val / 512, ht⟩ (0 : Fin 3) * 3 ≤ (i 0).val ∧ (i 0).val < win0_2.index ⟨(i 1).val / 512, ht⟩ (0 : Fin 3) * 3 + 3; omega
  | ⟨1, _⟩ => show win0_2.index ⟨(i 1).val / 512, ht⟩ (1 : Fin 3) * 512 ≤ (i 1).val ∧ (i 1).val < win0_2.index ⟨(i 1).val / 512, ht⟩ (1 : Fin 3) * 512 + 512; simp only at e1; omega
  | ⟨2, _⟩ => show win0_2.index ⟨(i 1).val / 512, ht⟩ (2 : Fin 3) * 128 ≤ (i 2).val ∧ (i 2).val < win0_2.index ⟨(i 1).val / 512, ht⟩ (2 : Fin 3) * 128 + 128; omega

/-- The mean output after the region. -/
theorem final2 (c : Dev nD) : (dats m 0 c).arrAt 2 cfg0.N = meanArr m c :=
  (dats m 0 c).arrAt_eq_of_cover 2 (meanArr m c) (fun t _ => flushed2_eq m c t) cover2

/-! ## The covariance output -/

/-- The contracted covariances of all samples, in the structure-of-arrays layout. -/
abbrev covArr (c : Dev nD) : S9x32768x128.Idx → Elt Ideal .f32 :=
  fun y => soaCov (V m c main_v2 : S3x32768x128.Idx → EReal) (V m c main_v4 : S9x32768x128.Idx → EReal) (y 0) (y 1) (y 2)

/-- Where the covariance output's block at point `t` sits in its array. -/
theorem emb_out3 (t : Fin cfg0.N) (k : Fin 9) (p : Fin 512) (q : Fin 128) :
    ((cfg0.win 3).blk t).view.emb (ix3 k p q) = ix3 k (rowOf t p) q := by
  obtain ⟨-, -, -, -, -, -, -, -, -, e0, e1, e2⟩ := idx_facts t
  funext d; apply Fin.ext
  match d with
  | ⟨0, _⟩ => show win0_3.index t (0 : Fin 3) * 9 + 1 * k.val = k.val; omega
  | ⟨1, _⟩ => show win0_3.index t (1 : Fin 3) * 512 + 1 * p.val = t.val * 512 + p.val; omega
  | ⟨2, _⟩ => show win0_3.index t (2 : Fin 3) * 128 + 1 * q.val = q.val; omega

/-- What point `t` writes back to the covariance output is block `t` of `covArr`. -/
theorem flushed3_eq (c : Dev nD) (t : Fin cfg0.N) :
    (dats m 0 c).flushed 3 t = ((cfg0.win 3).blk t).view.read (Elt Ideal) (covArr m c) := by
  show (cfg0.win 3).cut (grid0.coords t) ((dats m 0 c).after 3 t) = _
  rw [after0_3, Block.out3_eq]
  funext j
  obtain ⟨k, p, q, rfl⟩ : ∃ (k : Fin 9) (p : Fin 512) (q : Fin 128), j = ix3 k p q := ⟨j 0, j 1, j 2, eq_ix3 j⟩
  show soaCov (iblk m c 0 t) (iblk m c 1 t) k p q = covArr m c (((cfg0.win 3).blk t).view.emb (ix3 k p q))
  rw [emb_out3]
  show kCov (fun b => iblk m c 0 t (ix3 b p q)) (fun a b => iblk m c 1 t (ix3 (flat a b) p q)) (row k) (col k)
    = kCov (fun b => (V m c main_v2 : S3x32768x128.Idx → EReal) (ix3 b (rowOf t p) q))
        (fun a b => (V m c main_v4 : S9x32768x128.Idx → EReal) (ix3 (flat a b) (rowOf t p) q)) (row k) (col k)
  simp only [read_mean_blk, read_cov_blk]

/-- An index of the covariance output lies in point `t`'s block iff each coordinate lies in the block's range. -/
theorem mem_blk3 (t : Fin cfg0.N) (i : S9x32768x128.Idx) :
    i ∈ ((cfg0.win 3).blk t).view.set ↔ ∀ a : Fin 3, win0_3.index t a * S9x512x128.size a ≤ (i a).val ∧ (i a).val < win0_3.index t a * S9x512x128.size a + S9x512x128.size a := by
  show i ∈ ((View.whole main_v5_1).slice (win0_3.rect t)).set ↔ _
  rw [View.set_slice_whole, Rect.mem_set_unit]
  exact Iff.rfl

/-- Every index of the covariance output is in the block of point `row / 512`. -/
theorem cover3 (i : S9x32768x128.Idx) : ∃ t : Fin cfg0.N, (cfg0.win 3).flush t = true ∧ i ∈ ((cfg0.win 3).blk t).view.set := by
  have hi0 : (i 0).val < 9 := (i 0).isLt
  have hi1 : (i 1).val < 32768 := (i 1).isLt
  have hi2 : (i 2).val < 128 := (i 2).isLt
  have hN : cfg0.N = 64 := N_0
  have ht : (i 1).val / 512 < cfg0.N := by omega
  obtain ⟨-, -, -, -, -, -, -, -, -, e0, e1, e2⟩ := idx_facts ⟨(i 1).val / 512, ht⟩
  refine ⟨⟨(i 1).val / 512, ht⟩, flush0_3 _, ?_⟩
  rw [mem_blk3]
  intro a
  match a with
  | ⟨0, _⟩ => show win0_3.index ⟨(i 1).val / 512, ht⟩ (0 : Fin 3) * 9 ≤ (i 0).val ∧ (i 0).val < win0_3.index ⟨(i 1).val / 512, ht⟩ (0 : Fin 3) * 9 + 9; omega
  | ⟨1, _⟩ => show win0_3.index ⟨(i 1).val / 512, ht⟩ (1 : Fin 3) * 512 ≤ (i 1).val ∧ (i 1).val < win0_3.index ⟨(i 1).val / 512, ht⟩ (1 : Fin 3) * 512 + 512; simp only at e1; omega
  | ⟨2, _⟩ => show win0_3.index ⟨(i 1).val / 512, ht⟩ (2 : Fin 3) * 128 ≤ (i 2).val ∧ (i 2).val < win0_3.index ⟨(i 1).val / 512, ht⟩ (2 : Fin 3) * 128 + 128; omega

/-- The covariance output after the region. -/
theorem final3 (c : Dev nD) : (dats m 0 c).arrAt 3 cfg0.N = covArr m c :=
  (dats m 0 c).arrAt_eq_of_cover 3 (covArr m c) (fun t _ => flushed3_eq m c t) cover3

end Cert.KernelIdeal.Arrays

end
-- ==== Proof.KernelHost.lean ====
/-
  The host side of the kernel's program.  Before the region the means `[N, 3]` are transposed to `[3, N]` and viewed as
  `[3, N/128, 128]`, the covariances `[N, 3, 3]` flattened to `[N, 9]`, transposed and viewed as `[9, N/128, 128]`: sample `n`
  sits at row `n / 128`, lane `n % 128`.  After the region the two outputs go the same way back.  Composed with the
  region's result, sample `n` of the program's results is the closed-form contraction of sample `n` of its arguments.
-/
import proofs.«130601_j54795192762843_2_alg».proof.Proof.Gen.KernelIdeal.Frame
import proofs.«130601_j54795192762843_2_alg».proof.Proof.Layout
import proofs.«130601_j54795192762843_2_alg».proof.Proof.KernelArrays
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen Idealize.ShloMosaic Idealize.ShloMosaic.TcCoe Idealize.ShloMosaic.ValueIdx Cert.Contract
open Idealize.SL.Sem

variable (m : (ℓ : Loc nD τ sig) → Buf (Elt Ideal) ℓ)

/-! ## Samples, rows and lanes -/

/-- Sample `n` sits at row `n / 128`, lane `n % 128`. -/
abbrev sampleOf (R : Fin 32768) (l : Fin 128) : Fin 4194304 := ⟨R.val * 128 + l.val, by omega⟩
abbrev rowOfSample (n : Fin 4194304) : Fin 32768 := ⟨n.val / 128, by omega⟩
abbrev laneOfSample (n : Fin 4194304) : Fin 128 := ⟨n.val % 128, by omega⟩

theorem sample_eq (n : Fin 4194304) : sampleOf (rowOfSample n) (laneOfSample n) = n :=
  Fin.ext (by show n.val / 128 * 128 + n.val % 128 = n.val; omega)

/-- The means `[N, 3]`, transposed and viewed `[3, N/128, 128]`, read at (component, row, lane). -/
theorem mean_in (A0 : S4194304x3.Idx → EReal) (b : Fin 3) (R : Fin 32768) (l : Fin 128) :
    shapeCast S3x32768x128 (transpose S3x4194304 [1, 0] A0 transposes_S4194304x3_S3x4194304_1_0) shapeCasts_S3x4194304_S3x32768x128 (ix3 b R l)
      = A0 (ix2 (sampleOf R l) b) := by
  rw [shapeCast_apply _ shapeCasts_S3x4194304_S3x32768x128 (ix3 b R l) (ix2 b (sampleOf R l)) (by
    rw [Shape.rowMajor_val_two, Shape.rowMajor_val_three]
    show b.val * 4194304 + (R.val * 128 + l.val) = (b.val * 32768 + R.val) * 128 + l.val
    omega)]
  exact transpose_ix2_apply A0 transposes_S4194304x3_S3x4194304_1_0 b (sampleOf R l)

/-- The covariances `[N, 3, 3]`, flattened, transposed and viewed `[9, N/128, 128]`, read at (component, row, lane). -/
theorem cov_in (A1 : S4194304x3x3.Idx → EReal) (k : Fin 9) (R : Fin 32768) (l : Fin 128) :
    shapeCast S9x32768x128 (transpose S9x4194304 [1, 0] (shapeCast S4194304x9 A1 shapeCasts_S4194304x3x3_S4194304x9) transposes_S4194304x9_S9x4194304_1_0) shapeCasts_S9x4194304_S9x32768x128 (ix3 k R l)
      = A1 (ix3 (sampleOf R l) (row k) (col k)) := by
  rw [shapeCast_apply _ shapeCasts_S9x4194304_S9x32768x128 (ix3 k R l) (ix2 k (sampleOf R l)) (by
    rw [Shape.rowMajor_val_two, Shape.rowMajor_val_three]
    show k.val * 4194304 + (R.val * 128 + l.val) = (k.val * 32768 + R.val) * 128 + l.val
    omega)]
  rw [transpose_ix2_apply (shapeCast S4194304x9 A1 shapeCasts_S4194304x3x3_S4194304x9) transposes_S4194304x9_S9x4194304_1_0 k (sampleOf R l)]
  exact shapeCast_apply A1 shapeCasts_S4194304x3x3_S4194304x9 (ix2 (sampleOf R l) k) (ix3 (sampleOf R l) (row k) (col k)) (by
    rw [Shape.rowMajor_val_two, Shape.rowMajor_val_three]
    show ((R.val * 128 + l.val) * 3 + k.val / 3) * 3 + k.val % 3 = (R.val * 128 + l.val) * 9 + k.val
    omega)

/-- A `[3, N/128, 128]` array viewed `[3, N]` and transposed, read at (sample, component). -/
theorem mean_out (M : S3x32768x128.Idx → EReal) (n : Fin 4194304) (a : Fin 3) :
    transpose S4194304x3 [1, 0] (shapeCast S3x4194304 M shapeCasts_S3x32768x128_S3x4194304) transposes_S3x4194304_S4194304x3_1_0 (ix2 n a)
      = M (ix3 a (rowOfSample n) (laneOfSample n)) := by
  rw [transpose_ix2_apply (shapeCast S3x4194304 M shapeCasts_S3x32768x128_S3x4194304) transposes_S3x4194304_S4194304x3_1_0 n a]
  exact shapeCast_apply M shapeCasts_S3x32768x128_S3x4194304 (ix2 a n) (ix3 a (rowOfSample n) (laneOfSample n)) (by
    rw [Shape.rowMajor_val_two, Shape.rowMajor_val_three]
    show (a.val * 32768 + n.val / 128) * 128 + n.val % 128 = a.val * 4194304 + n.val
    omega)

/-- A `[9, N/128, 128]` array viewed `[9, N]`, transposed and viewed `[N, 3, 3]`, read at (sample, row, column). -/
theorem cov_out (C : S9x32768x128.Idx → EReal) (n : Fin 4194304) (a b : Fin 3) :
    shapeCast S4194304x3x3 (transpose S4194304x9 [1, 0] (shapeCast S9x4194304 C shapeCasts_S9x32768x128_S9x4194304) transposes_S9x4194304_S4194304x9_1_0) shapeCasts_S4194304x9_S4194304x3x3 (ix3 n a b)
      = C (ix3 (flat a b) (rowOfSample n) (laneOfSample n)) := by
  rw [shapeCast_apply _ shapeCasts_S4194304x9_S4194304x3x3 (ix3 n a b) (ix2 n (flat a b)) (by
    rw [Shape.rowMajor_val_two, Shape.rowMajor_val_three]
    show n.val * 9 + (3 * a.val + b.val) = (n.val * 3 + a.val) * 3 + b.val
    omega)]
  rw [transpose_ix2_apply (shapeCast S9x4194304 C shapeCasts_S9x32768x128_S9x4194304) transposes_S9x4194304_S4194304x9_1_0 n (flat a b)]
  exact shapeCast_apply C shapeCasts_S9x32768x128_S9x4194304 (ix2 (flat a b) n) (ix3 (flat a b) (rowOfSample n) (laneOfSample n)) (by
    rw [Shape.rowMajor_val_two, Shape.rowMajor_val_three]
    show ((3 * a.val + b.val) * 32768 + n.val / 128) * 128 + n.val % 128 = (3 * a.val + b.val) * 4194304 + n.val
    omega)

/-! ## The program around the region -/

/-- The mean input as the region finds it. -/
theorem V_v2 (c : Dev nD) : (V m c main_v2 : S3x32768x128.Idx → EReal) =
    shapeCast S3x32768x128 (transpose S3x4194304 [1, 0] (m ((c : Thread nD τ).loc main_arg0)) transposes_S4194304x3_S3x4194304_1_0) shapeCasts_S3x4194304_S3x32768x128 := by
  show StableHlo.after hostOps0 (fun b => m (c, b)) (Proc.devRef .tc main_v2) = _
  after_results
  rfl

/-- The covariance input as the region finds it. -/
theorem V_v4 (c : Dev nD) : (V m c main_v4 : S9x32768x128.Idx → EReal) =
    shapeCast S9x32768x128 (transpose S9x4194304 [1, 0] (shapeCast S4194304x9 (m ((c : Thread nD τ).loc main_arg1)) shapeCasts_S4194304x3x3_S4194304x9) transposes_S4194304x9_S9x4194304_1_0) shapeCasts_S9x4194304_S9x32768x128 := by
  show StableHlo.after hostOps0 (fun b => m (c, b)) (Proc.devRef .tc main_v4) = _
  after_results
  rfl

/-- The first result after the host operations that follow the region. -/
theorem tail_v7 (c : Dev nD) : Pipeline.afterTail₀ cfgs (dats m) 0 (V0 m) [hostOps1] c main_v7
    = transpose S4194304x3 [1, 0] (shapeCast S3x4194304 (Arrays.meanArr m c) shapeCasts_S3x32768x128_S3x4194304) transposes_S3x4194304_S4194304x3_1_0 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.tc.devRef main_v5_0) = Arrays.meanArr m c :=
    (Pipeline.withArrays_arr spec0 launch0.win.arr_inj c _ _ 2).trans (Arrays.final2 m c)
  rw [e]
  rfl

/-- The second result after the host operations that follow the region. -/
theorem tail_v10 (c : Dev nD) : Pipeline.afterTail₀ cfgs (dats m) 0 (V0 m) [hostOps1] c main_v10
    = shapeCast S4194304x3x3 (transpose S4194304x9 [1, 0] (shapeCast S9x4194304 (Arrays.covArr m c) shapeCasts_S9x32768x128_S9x4194304) transposes_S9x4194304_S4194304x9_1_0) shapeCasts_S4194304x9_S4194304x3x3 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.tc.devRef main_v5_1) = Arrays.covArr m c :=
    (Pipeline.withArrays_arr spec0 launch0.win.arr_inj c _ _ 3).trans (Arrays.final3 m c)
  rw [e]
  rfl

/-! ## The results -/

/-- The contracted mean of every sample, closed form, of the program's arguments. -/
abbrev meanK (A0 : S4194304x3.Idx → EReal) : S4194304x3.Idx → EReal :=
  fun i => kMean (fun b => A0 (ix2 (i 0) b)) (i 1)

/-- The contracted covariance of every sample, closed form, of the program's arguments. -/
abbrev covK (A0 : S4194304x3.Idx → EReal) (A1 : S4194304x3x3.Idx → EReal) : S4194304x3x3.Idx → EReal :=
  fun i => kCov (fun b => A0 (ix2 (i 0) b)) (fun a b => A1 (ix3 (i 0) a b)) (i 1) (i 2)

theorem value_v7 (c : Dev nD) : Pipeline.afterTail₀ cfgs (dats m) 0 (V0 m) [hostOps1] c main_v7
    = meanK (m ((c : Thread nD τ).loc main_arg0)) := by
  rw [tail_v7]
  funext i
  obtain ⟨n, a, rfl⟩ : ∃ (n : Fin 4194304) (a : Fin 3), i = ix2 n a := ⟨i 0, i 1, eq_ix2 i⟩
  rw [mean_out]
  show kMean (fun b => (V m c main_v2 : S3x32768x128.Idx → EReal) (ix3 b (rowOfSample n) (laneOfSample n))) a
    = kMean (fun b => m ((c : Thread nD τ).loc main_arg0) (ix2 n b)) a
  rw [V_v2]
  simp only [mean_in (m ((c : Thread nD τ).loc main_arg0)), sample_eq]

theorem value_v10 (c : Dev nD) : Pipeline.afterTail₀ cfgs (dats m) 0 (V0 m) [hostOps1] c main_v10
    = covK (m ((c : Thread nD τ).loc main_arg0)) (m ((c : Thread nD τ).loc main_arg1)) := by
  rw [tail_v10]
  funext i
  obtain ⟨n, a, b, rfl⟩ : ∃ (n : Fin 4194304) (a b : Fin 3), i = ix3 n a b := ⟨i 0, i 1, i 2, eq_ix3 i⟩
  rw [cov_out]
  show kCov (fun b' => (V m c main_v2 : S3x32768x128.Idx → EReal) (ix3 b' (rowOfSample n) (laneOfSample n)))
      (fun a' b' => (V m c main_v4 : S9x32768x128.Idx → EReal) (ix3 (flat a' b') (rowOfSample n) (laneOfSample n))) (row (flat a b)) (col (flat a b))
    = kCov (fun b' => m ((c : Thread nD τ).loc main_arg0) (ix2 n b')) (fun a' b' => m ((c : Thread nD τ).loc main_arg1) (ix3 n a' b')) a b
  rw [V_v2, V_v4]
  simp only [mean_in (m ((c : Thread nD τ).loc main_arg0)), cov_in (m ((c : Thread nD τ).loc main_arg1)), sample_eq, row_flat, col_flat]

/-- The kernel's program runs, and ends with its two results at the closed-form contraction of its arguments, which it
    leaves unchanged. -/
theorem run (ρ : Dev nD → PrngReg) : θ_run defs (onTc (τ := τ) (main (F := Ideal))) ⟨m, fun _ => 0, ρ⟩ fun r => ∀ c : Dev nD,
      r.2.mem ((c : Thread nD τ).loc main_v7) = meanK (m ((c : Thread nD τ).loc main_arg0))
      ∧ r.2.mem ((c : Thread nD τ).loc main_v10) = covK (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v7 (Pipeline.mem_restRefs_of main_v7 (by decide) (by decide))).trans (value_v7 m c),
     ((h c).2 main_v10 (Pipeline.mem_restRefs_of main_v10 (by decide) (by decide))).trans (value_v10 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Host

end
-- ==== Proof.RefRead.lean ====
/-
  The reference program read at one element: its contracted mean is `rMean` and its contracted covariance `rCov`
  (the differentiated form of the specification) of the sample's row of the mean array and the sample's 3×3 block of
  the covariance array.  Built bottom-up, one lemma per sub-quantity: the norm, the mean, the identity matrix, the
  cotangent of the norm, the Jacobian, the two contractions, the final selection.
-/
import proofs.«130601_j54795192762843_2_alg».proof.Proof.Gen.ReferenceIdeal.Read
import proofs.«130601_j54795192762843_2_alg».proof.Proof.Spec
import Idealize.ShloMosaic.Lib.ValueIdx
import Idealize.ShloMosaic.Lib.Pipeline.Value
import Idealize.ShloMosaic.Lib.ValueLayout
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The mean array. -/
abbrev XArr : Type := (⟨S4194304x3, .f32⟩ : BufTy).Contents (Elt Ideal)
/-- The covariance array. -/
abbrev CArr : Type := (⟨S4194304x3x3, .f32⟩ : BufTy).Contents (Elt Ideal)

/-- Sample `n`'s mean. -/
abbrev row (x0 : XArr) (n : Fin 4194304) : Fin 3 → EReal := fun a => x0 (ix2 n a)
/-- Sample `n`'s covariance. -/
abbrev blk (x1 : CArr) (n : Fin 4194304) : Fin 3 → Fin 3 → EReal := fun a b => x1 (ix3 n a b)

/-! ## The norm (three copies in the program) -/

/-- The first copy, kept as a column. -/
theorem norm_a (x0 : XArr) (n : Fin 4194304) (z : Fin 1) :
    val_main_v0 (F := Ideal) x0 (ix2 n z) = Cert.Contract.rr (row x0 n) := by
  have hidx : ∀ k : Fin 3, idx_main_call0_v1 (idx_main_call0_v2 (ix2 n z)) k = ix2 n k := fun k =>
    funext fun a => Fin.ext (by match a with | ⟨0, _⟩ => rfl | ⟨1, _⟩ => rfl)
  rw [val_main_v0_apply, val_main_call0_v2_apply, val_main_call0_v1_apply]
  simp only [val_main_call0_v0_apply, val_main_call0_cst_apply, hidx, Ideal.hostUnary_sqrt_def, Ideal.mulf_def,
    Ideal.ofBits_def]
  rfl

/-- The second copy, the one the Jacobian is built from. -/
theorem norm_b (x0 : XArr) (n : Fin 4194304) (z : Fin 1) :
    val_main_v12_0 (F := Ideal) x0 (ix2 n z) = Cert.Contract.rr (row x0 n) := by
  have hidx : ∀ k : Fin 3, idx_main_call2_v1 (idx_main_call2_v2 (ix2 n z)) k = ix2 n k := fun k =>
    funext fun a => Fin.ext (by match a with | ⟨0, _⟩ => rfl | ⟨1, _⟩ => rfl)
  rw [val_main_v12_0_apply, val_main_call2_v2_apply, val_main_call2_v1_apply]
  simp only [val_main_call2_v0_apply, val_main_call2_cst_apply, hidx, Ideal.hostUnary_sqrt_def, Ideal.mulf_def,
    Ideal.ofBits_def]
  rfl

/-- The third copy, a vector over the samples, which the covariance's selection compares with 1. -/
theorem norm_c (x0 : XArr) (n : Fin 4194304) :
    val_main_v70 (F := Ideal) x0 (ix1 n) = Cert.Contract.rr (row x0 n) := by
  have hidx : ∀ k : Fin 3, idx_main_call4_v1 (ix1 n) k = ix2 n k := fun k =>
    funext fun a => Fin.ext (by match a with | ⟨0, _⟩ => rfl | ⟨1, _⟩ => rfl)
  rw [val_main_v70_apply, val_main_call4_v1_apply]
  simp only [val_main_call4_v0_apply, val_main_call4_cst_apply, hidx, Ideal.hostUnary_sqrt_def, Ideal.mulf_def,
    Ideal.ofBits_def]
  rfl

/-! ## The contracted mean -/

theorem mean_at (x0 : XArr) (n : Fin 4194304) (a : Fin 3) :
    val_main_v11 (F := Ideal) x0 (ix2 n a) = Cert.Contract.rMean (row x0 n) a := by
  have h1 : idx_main_call1_v0 (ix2 n a) = ix2 n (0 : Fin 1) :=
    funext fun d => Fin.ext (by match d with | ⟨0, _⟩ => rfl | ⟨1, _⟩ => rfl)
  have h7 : idx_main_v7 (ix2 n a) = ix2 n (0 : Fin 1) :=
    funext fun d => Fin.ext (by match d with | ⟨0, _⟩ => rfl | ⟨1, _⟩ => rfl)
  have h9 : idx_main_v9 (ix2 n a) = ix2 n (0 : Fin 1) :=
    funext fun d => Fin.ext (by match d with | ⟨0, _⟩ => rfl | ⟨1, _⟩ => rfl)
  rw [val_main_v11_apply, val_main_call1_v0_apply, val_main_v10_apply, val_main_v9_apply, val_main_v8_apply,
    val_main_v7_apply, h1, h7, h9, val_main_v2_apply, val_main_v6_apply, val_main_v4_apply, val_main_v5_apply,
    val_main_v3_apply, val_main_v1_apply, val_main_cst_apply, val_main_cst_0_apply, val_main_cst_1_apply, norm_a]
  simp only [Ideal.hostDivf_def, Ideal.mulf_def, Ideal.subf_def, Ideal.ofBits_def]
  rfl

/-! ## The identity matrix -/

theorem eye_at (a b : Fin 3) : val_main_v33 (F := Ideal) (ix2 a b) = Cert.Contract.eye a b := by
  rw [val_main_v33_apply, val_main_v32_apply, val_main_v31_apply, val_main_v30_apply, val_main_v27_apply,
    val_main_v28_apply, val_main_v29_apply, val_main_c_apply]
  show (((IntOp.cmpi .eq (IntOp.addi (BitVec.ofNat 32 a.val) 0#32) (BitVec.ofNat 32 b.val)).toNat : ℝ) : EReal) = _
  fin_cases a <;> fin_cases b <;> simp [Cert.Contract.eye] <;> decide

/-! ## The layout operations' index maps at coordinates -/

section Indices
variable (n : Fin 4194304) (a b : Fin 3) (z z' : Fin 1)

theorem i20 : idx_main_v20 (ix2 n a) = ix2 n (0 : Fin 1) :=
  funext fun d => Fin.ext (by match d with | ⟨0, _⟩ => rfl | ⟨1, _⟩ => rfl)
theorem i34 : idx_main_v34 (ix3 n z z') = ix2 n (0 : Fin 1) :=
  funext fun d => Fin.ext (by match d with | ⟨0, _⟩ => rfl | ⟨1, _⟩ => rfl)
theorem i46 : idx_main_v46 (ix3 n z z') = ix2 n (0 : Fin 1) :=
  funext fun d => Fin.ext (by match d with | ⟨0, _⟩ => rfl | ⟨1, _⟩ => rfl)
theorem i55 : idx_main_v55 (ix3 n z z') = ix2 n (0 : Fin 1) :=
  funext fun d => Fin.ext (by match d with | ⟨0, _⟩ => rfl | ⟨1, _⟩ => rfl)
theorem i59 : idx_main_v59 (ix3 n z z') = ix2 n (0 : Fin 1) :=
  funext fun d => Fin.ext (by match d with | ⟨0, _⟩ => rfl | ⟨1, _⟩ => rfl)
theorem ic3_0 : idx_main_call3_v0 (ix3 n z z') = ix2 n (0 : Fin 1) :=
  funext fun d => Fin.ext (by match d with | ⟨0, _⟩ => rfl | ⟨1, _⟩ => rfl)
theorem i36 : idx_main_v36 (ix3 n a b) = ix3 n (0 : Fin 1) (0 : Fin 1) :=
  funext fun d => Fin.ext (by match d with | ⟨0, _⟩ => rfl | ⟨1, _⟩ => rfl | ⟨2, _⟩ => rfl)
theorem i47 : idx_main_v47 (ix3 n a b) = ix3 n (0 : Fin 1) (0 : Fin 1) :=
  funext fun d => Fin.ext (by match d with | ⟨0, _⟩ => rfl | ⟨1, _⟩ => rfl | ⟨2, _⟩ => rfl)
theorem i56 : idx_main_v56 (ix3 n a b) = ix3 n (0 : Fin 1) (0 : Fin 1) :=
  funext fun d => Fin.ext (by match d with | ⟨0, _⟩ => rfl | ⟨1, _⟩ => rfl | ⟨2, _⟩ => rfl)
theorem ic5_0 : idx_main_call5_v0 (ix3 n a b) = ix3 n (0 : Fin 1) (0 : Fin 1) :=
  funext fun d => Fin.ext (by match d with | ⟨0, _⟩ => rfl | ⟨1, _⟩ => rfl | ⟨2, _⟩ => rfl)
theorem i60 : idx_main_v60 (ix3 n a z) = ix3 n (0 : Fin 1) (0 : Fin 1) :=
  funext fun d => Fin.ext (by match d with | ⟨0, _⟩ => rfl | ⟨1, _⟩ => rfl | ⟨2, _⟩ => rfl)
theorem ic3_1 : idx_main_call3_v1 (ix3 n a z) = ix3 n (0 : Fin 1) (0 : Fin 1) :=
  funext fun d => Fin.ext (by match d with | ⟨0, _⟩ => rfl | ⟨1, _⟩ => rfl | ⟨2, _⟩ => rfl)
theorem i35 : idx_main_v35 (ix3 z a b) = ix2 a b :=
  funext fun d => Fin.ext (by match d with | ⟨0, _⟩ => rfl | ⟨1, _⟩ => rfl)
theorem i40 : idx_main_v40 (ix3 z a b) = ix2 a b :=
  funext fun d => Fin.ext (by match d with | ⟨0, _⟩ => rfl | ⟨1, _⟩ => rfl)
theorem i37 : idx_main_v37 (ix3 n a b) = ix3 (0 : Fin 1) a b :=
  funext fun d => Fin.ext (by match d with | ⟨0, _⟩ => rfl | ⟨1, _⟩ => rfl | ⟨2, _⟩ => rfl)
theorem i41 : idx_main_v41 (ix3 n a b) = ix3 (0 : Fin 1) a b :=
  funext fun d => Fin.ext (by match d with | ⟨0, _⟩ => rfl | ⟨1, _⟩ => rfl | ⟨2, _⟩ => rfl)
theorem i39 : idx_main_v39 (ix3 n z b) = ix2 n b :=
  funext fun d => Fin.ext (by match d with | ⟨0, _⟩ => rfl | ⟨1, _⟩ => rfl)
theorem i49 : idx_main_v49 (ix3 n z b) = ix2 n b :=
  funext fun d => Fin.ext (by match d with | ⟨0, _⟩ => rfl | ⟨1, _⟩ => rfl)
theorem ic3_5 : idx_main_call3_v5 (ix3 n z b) = ix2 n b :=
  funext fun d => Fin.ext (by match d with | ⟨0, _⟩ => rfl | ⟨1, _⟩ => rfl)
theorem ic3_8 : idx_main_call3_v8 (ix3 n z b) = ix2 n b :=
  funext fun d => Fin.ext (by match d with | ⟨0, _⟩ => rfl | ⟨1, _⟩ => rfl)
theorem i42 : idx_main_v42 (ix3 n a b) = ix3 n (0 : Fin 1) b :=
  funext fun d => Fin.ext (by match d with | ⟨0, _⟩ => rfl | ⟨1, _⟩ => rfl | ⟨2, _⟩ => rfl)
theorem i50 : idx_main_v50 (ix3 n a b) = ix3 n (0 : Fin 1) b :=
  funext fun d => Fin.ext (by match d with | ⟨0, _⟩ => rfl | ⟨1, _⟩ => rfl | ⟨2, _⟩ => rfl)
theorem ic3_6 : idx_main_call3_v6 (ix3 n a b) = ix3 n (0 : Fin 1) b :=
  funext fun d => Fin.ext (by match d with | ⟨0, _⟩ => rfl | ⟨1, _⟩ => rfl | ⟨2, _⟩ => rfl)
theorem ic3_9 : idx_main_call3_v9 (ix3 n a b) = ix3 n (0 : Fin 1) b :=
  funext fun d => Fin.ext (by match d with | ⟨0, _⟩ => rfl | ⟨1, _⟩ => rfl | ⟨2, _⟩ => rfl)
theorem i44 : idx_main_v44 (ix2 n a) b = ix3 n a b :=
  funext fun d => Fin.ext (by match d with | ⟨0, _⟩ => rfl | ⟨1, _⟩ => rfl | ⟨2, _⟩ => rfl)
theorem i52 : idx_main_v52 (ix2 n a) b = ix3 n a b :=
  funext fun d => Fin.ext (by match d with | ⟨0, _⟩ => rfl | ⟨1, _⟩ => rfl | ⟨2, _⟩ => rfl)
theorem ic3_3 : idx_main_call3_v3 (ix2 n a) z = ix3 n a z :=
  funext fun d => Fin.ext (by match d with | ⟨0, _⟩ => rfl | ⟨1, _⟩ => rfl | ⟨2, _⟩ => rfl)
theorem ic3_4 : idx_main_call3_v4 (ix3 n a b) = ix2 n a :=
  funext fun d => Fin.ext (by match d with | ⟨0, _⟩ => rfl | ⟨1, _⟩ => rfl)
theorem i68 : idx_main_v68 (ix3 n a b) = ix3 n a b :=
  funext fun d => Fin.ext (by match d with | ⟨0, _⟩ => rfl | ⟨1, _⟩ => rfl | ⟨2, _⟩ => rfl)
theorem i75 : idx_main_v75 (ix3 n z z') = ix1 n :=
  funext fun d => Fin.ext (by match d with | ⟨0, _⟩ => rfl)
/-- A column `[N,3]` reshaped to `[N,3,1]`: row-major position `(n·3 + a)·1 + 0` is `(n, a)`. -/
theorem i45 : idx_main_v45 (ix3 n a z) = ix2 n a :=
  funext fun d => Fin.ext (by
    have hz : z.val = 0 := by have := z.isLt; omega
    have ha : a.val < 3 := a.isLt
    match d with
    | ⟨0, _⟩ => show ((n.val * 3 + a.val) * 1 + z.val) / 3 = n.val; omega
    | ⟨1, _⟩ => show ((n.val * 3 + a.val) * 1 + z.val) % 3 = a.val; omega)
theorem i53 : idx_main_v53 (ix3 n a z) = ix2 n a :=
  funext fun d => Fin.ext (by
    have hz : z.val = 0 := by have := z.isLt; omega
    have ha : a.val < 3 := a.isLt
    match d with
    | ⟨0, _⟩ => show ((n.val * 3 + a.val) * 1 + z.val) / 3 = n.val; omega
    | ⟨1, _⟩ => show ((n.val * 3 + a.val) * 1 + z.val) % 3 = a.val; omega)
/-- The two contractions' operand positions: result `(n, p, q)` sums the left operand at `(n, k, p)` times the right at `(n, q, k)`. -/
theorem il73 (p q k : Fin 3) : lidx_main_v73 (ix3 n p q) k = ix3 n k p :=
  funext fun d => Fin.ext (by match d with | ⟨0, _⟩ => rfl | ⟨1, _⟩ => rfl | ⟨2, _⟩ => rfl)
theorem ir73 (p q k : Fin 3) : ridx_main_v73 (ix3 n p q) k = ix3 n q k :=
  funext fun d => Fin.ext (by match d with | ⟨0, _⟩ => rfl | ⟨1, _⟩ => rfl | ⟨2, _⟩ => rfl)
theorem il74 (p q k : Fin 3) : lidx_main_v74 (ix3 n p q) k = ix3 n k p :=
  funext fun d => Fin.ext (by match d with | ⟨0, _⟩ => rfl | ⟨1, _⟩ => rfl | ⟨2, _⟩ => rfl)
theorem ir74 (p q k : Fin 3) : ridx_main_v74 (ix3 n p q) k = ix3 n q k :=
  funext fun d => Fin.ext (by match d with | ⟨0, _⟩ => rfl | ⟨1, _⟩ => rfl | ⟨2, _⟩ => rfl)

end Indices

/-! ## The pieces of the Jacobian -/

section Pieces
variable (x0 : XArr) (n : Fin 4194304)

/-- `2 - 1/‖x‖`. -/
theorem c19_at (z : Fin 1) :
    val_main_v19 (F := Ideal) x0 (ix2 n z) = Cert.Contract.two - Ideal.div Cert.Contract.one (Cert.Contract.rr (row x0 n)) := by
  rw [val_main_v19_apply, val_main_v18_apply, val_main_cst_4_apply, val_main_v14_apply, val_main_v13_apply,
    val_main_cst_2_apply, norm_b]
  rfl

/-- `1/‖x‖²`, first copy. -/
theorem inv2a_at (z : Fin 1) :
    val_main_v17 (F := Ideal) x0 (ix2 n z)
      = Ideal.div Cert.Contract.one (Cert.Contract.rr (row x0 n) * Cert.Contract.rr (row x0 n)) := by
  rw [val_main_v17_apply, val_main_v16_apply, val_main_cst_3_apply, val_main_v15_apply, norm_b]
  rfl

/-- `1/‖x‖²`, second copy. -/
theorem inv2b_at (z : Fin 1) :
    val_main_v24 (F := Ideal) x0 (ix2 n z)
      = Ideal.div Cert.Contract.one (Cert.Contract.rr (row x0 n) * Cert.Contract.rr (row x0 n)) := by
  rw [val_main_v24_apply, val_main_v23_apply, val_main_cst_5_apply, val_main_v22_apply, norm_b]
  rfl

/-- `xₐ/‖x‖`. -/
theorem xr_at (a : Fin 3) :
    val_main_v21 (F := Ideal) x0 (ix2 n a) = Ideal.div (x0 (ix2 n a)) (Cert.Contract.rr (row x0 n)) := by
  rw [val_main_v21_apply, val_main_v20_apply, i20, norm_b]
  rfl

/-- `(2 - 1/‖x‖)·δᵢₖ`. -/
theorem m38_at (i k : Fin 3) :
    val_main_v38 (F := Ideal) x0 (ix3 n i k)
      = (Cert.Contract.two - Ideal.div Cert.Contract.one (Cert.Contract.rr (row x0 n))) * Cert.Contract.eye i k := by
  rw [val_main_v38_apply, val_main_v36_apply, i36, val_main_v34_apply, i34, c19_at, val_main_v37_apply, i37,
    val_main_v35_apply, i35, eye_at]
  rfl

/-- `Σₖ δᵢₖ·(xₖ/‖x‖)`, summed from 0. -/
theorem s44_at (i : Fin 3) :
    val_main_v44 (F := Ideal) x0 (ix2 n i)
      = Cert.Contract.zero + ∑ k : Fin 3, Cert.Contract.eye i k * Ideal.div (x0 (ix2 n k)) (Cert.Contract.rr (row x0 n)) := by
  rw [val_main_v44_apply, val_main_cst_6_apply]
  refine congrArg (_ + ·) (Finset.sum_congr rfl fun k _ => ?_)
  rw [i44, val_main_v43_apply, val_main_v41_apply, i41, val_main_v40_apply, i40, eye_at, val_main_v42_apply, i42,
    val_main_v39_apply, i39, xr_at]
  rfl

/-- `Σₖ (2 - 1/‖x‖)·δᵢₖ·(1/‖x‖²)·xₖ`, summed from 0. -/
theorem s52_at (i : Fin 3) :
    val_main_v52 (F := Ideal) x0 (ix2 n i)
      = Cert.Contract.zero + ∑ k : Fin 3,
          (Cert.Contract.two - Ideal.div Cert.Contract.one (Cert.Contract.rr (row x0 n))) * Cert.Contract.eye i k
            * Ideal.div Cert.Contract.one (Cert.Contract.rr (row x0 n) * Cert.Contract.rr (row x0 n)) * x0 (ix2 n k) := by
  rw [val_main_v52_apply, val_main_cst_7_apply]
  refine congrArg (_ + ·) (Finset.sum_congr rfl fun k _ => ?_)
  rw [i52, val_main_v51_apply, val_main_v48_apply, m38_at, val_main_v47_apply, i47, val_main_v46_apply, i46,
    inv2b_at, val_main_v50_apply, i50, val_main_v49_apply, i49]
  rfl

/-- The cotangent that reaches the norm from output component `i`. -/
theorem rg_at (i : Fin 3) (z : Fin 1) :
    val_main_v65 (F := Ideal) x0 (ix3 n i z) = Cert.Contract.rg (row x0 n) i := by
  rw [val_main_v65_apply, val_main_v54_apply, val_main_v53_apply, i53, s52_at, val_main_v64_apply,
    val_main_v63_apply, val_main_v61_apply, val_main_v58_apply, val_main_v45_apply, i45, s44_at,
    val_main_v60_apply, i60, val_main_v59_apply, i59, inv2a_at, val_main_v62_apply, val_main_cst_8_apply]
  rfl

/-- That cotangent times the square root's residual, summed over the unit axis. -/
theorem rt_at (i : Fin 3) :
    val_main_call3_v3 (F := Ideal) x0 (ix2 n i) = Cert.Contract.rt (row x0 n) i := by
  rw [val_main_call3_v3_apply, val_main_call3_cst_apply]
  refine congrArg (_ + ·) (Finset.sum_congr rfl fun k _ => ?_)
  rw [ic3_3, val_main_call3_v2_apply, rg_at, val_main_call3_v1_apply, ic3_1, val_main_call3_v0_apply, ic3_0,
    val_main_v12_1_apply, val_main_call2_v4_apply, val_main_call2_cst_0_apply, norm_b]
  rfl

/-- The Jacobian entry `∂fᵢ/∂xⱼ`. -/
theorem rJ_at (i j : Fin 3) :
    val_main_v69 (F := Ideal) x0 (ix3 n i j) = Cert.Contract.rJ (row x0 n) i j := by
  rw [val_main_v69_apply, val_main_v68_apply, i68, val_main_v67_apply, val_main_v57_apply, m38_at,
    val_main_v56_apply, i56, val_main_v55_apply, i55, norm_b, val_main_v66_apply, val_main_call3_v7_apply,
    val_main_call3_v10_apply, val_main_call3_v6_apply, ic3_6, val_main_call3_v5_apply, ic3_5,
    val_main_call3_v4_apply, ic3_4, rt_at, val_main_call3_v9_apply, ic3_9, val_main_call3_v8_apply, ic3_8]
  rfl

end Pieces

/-! ## The two contractions and the selection -/

section Cov
variable (x0 : XArr) (x1 : CArr) (n : Fin 4194304)

/-- `Σⱼ cⱼₖ·Jᵢⱼ` sits at position `(n, k, i)`. -/
theorem t73_at (k i : Fin 3) :
    val_main_v73 (F := Ideal) x0 x1 (ix3 n k i) = ∑ j : Fin 3, x1 (ix3 n j k) * Cert.Contract.rJ (row x0 n) i j := by
  rw [val_main_v73_apply]
  refine Finset.sum_congr rfl fun j _ => ?_
  rw [il73, ir73, rJ_at]

/-- `Σₖ (Σⱼ cⱼₖ·Jᵢⱼ)·Jₗₖ` sits at position `(n, i, l)`. -/
theorem t74_at (i l : Fin 3) :
    val_main_v74 (F := Ideal) x0 x1 (ix3 n i l)
      = ∑ k : Fin 3, (∑ j : Fin 3, x1 (ix3 n j k) * Cert.Contract.rJ (row x0 n) i j) * Cert.Contract.rJ (row x0 n) l k := by
  rw [val_main_v74_apply]
  refine Finset.sum_congr rfl fun k _ => ?_
  rw [il74, ir74, t73_at, rJ_at]

theorem cov_at (i l : Fin 3) :
    val_main_v76 (F := Ideal) x0 x1 (ix3 n i l) = Cert.Contract.rCov (row x0 n) (blk x1 n) i l := by
  rw [val_main_v76_apply, val_main_call5_v0_apply, ic5_0, val_main_v75_apply, i75, val_main_v72_apply, norm_c,
    val_main_v71_apply, val_main_cst_9_apply, t74_at]
  rfl

end Cov

/-! ## The two results at an index -/

theorem mean_read (x0 : XArr) (i : S4194304x3.Idx) :
    val_main_v11 (F := Ideal) x0 i = Cert.Contract.rMean (fun a => x0 (ix2 (i 0) a)) (i 1) := by
  obtain ⟨n, a, rfl⟩ : ∃ (n : Fin 4194304) (a : Fin 3), i = ix2 n a := ⟨i 0, i 1, eq_ix2 i⟩
  exact mean_at x0 n a

theorem cov_read (x0 : XArr) (x1 : CArr) (i : S4194304x3x3.Idx) :
    val_main_v76 (F := Ideal) x0 x1 i
      = Cert.Contract.rCov (fun a => x0 (ix2 (i 0) a)) (fun a b => x1 (ix3 (i 0) a b)) (i 1) (i 2) := by
  obtain ⟨n, a, b, rfl⟩ : ∃ (n : Fin 4194304) (a b : Fin 3), i = ix3 n a b := ⟨i 0, i 1, i 2, eq_ix3 i⟩
  exact cov_at x0 x1 n a b

end Cert.ReferenceIdeal.RefValue

end
-- ==== Proof.Algebra.lean ====
/-
  The closed form and the differentiated form of the contraction agree on finite inputs.

  Every input is finite, so it is the coercion of a real; the norm `r = √(x₀² + x₁² + x₂²)` is then a nonnegative
  real, both forms compare the same `r` against `1`, and in the branch that does not return the input unchanged
  `r ≥ 1 > 0`, so each division is the product with the real reciprocal `u = 1/r` and every intermediate value is
  the coercion of a real polynomial in `u`, the `xᵢ` and the `cᵢⱼ`.  The two polynomials are equal.
-/
import proofs.«130601_j54795192762843_2_alg».proof.Proof.Spec

noncomputable section

namespace Cert.Contract

open Idealize.ShloMosaic

/-! ## The float words -/

theorem one_eq : one = ((1 : ℝ) : EReal) := by
  simp [one, Ideal.ofBits, Ideal.ieee, -EReal.coe_mul]; norm_num
theorem two_eq : two = ((2 : ℝ) : EReal) := by
  simp [two, Ideal.ofBits, Ideal.ieee, -EReal.coe_mul]; norm_num
theorem half_eq : half = ((1 / 2 : ℝ) : EReal) := by
  simp [half, Ideal.ofBits, Ideal.ieee, -EReal.coe_mul]; norm_num
theorem zero_eq : zero = ((0 : ℝ) : EReal) := by
  simp [zero, Ideal.ofBits, Ideal.ieee]

/-! ## A selection on a comparison is an `if` on the linear order -/

theorem select_olt (a b u v : EReal) :
    Scalar.select (Ideal.cmp .olt a b) u v = if a < b then u else v := by
  unfold Scalar.select Ideal.cmp
  by_cases h : a < b <;> simp [h]

theorem select_oge (a b u v : EReal) :
    Scalar.select (Ideal.cmp .oge a b) u v = if b ≤ a then u else v := by
  unfold Scalar.select Ideal.cmp
  by_cases h : b ≤ a <;> simp [h]

theorem eye_eq (i j : Fin 3) : eye i j = ((if i = j then 1 else 0 : ℝ) : EReal) := by
  unfold eye; split_ifs <;> simp

/-! ## The norm -/

/-- The Euclidean norm of a real triple. -/
def nrm (X : Fin 3 → ℝ) : ℝ := Real.sqrt (X 0 * X 0 + X 1 * X 1 + X 2 * X 2)

theorem nrm_nonneg (X : Fin 3 → ℝ) : 0 ≤ nrm X := Real.sqrt_nonneg _

section Finite

variable {x : Fin 3 → EReal} {X : Fin 3 → ℝ} (hX : ∀ a, x a = (X a : EReal))
include hX

theorem kr_eq : kr x = (nrm X : EReal) := by
  have h : ¬ (X 0 * X 0 + X 1 * X 1 + X 2 * X 2 < 0) := not_lt.mpr (add_nonneg (add_nonneg (mul_self_nonneg _) (mul_self_nonneg _)) (mul_self_nonneg _))
  simp only [kr, hX, ← EReal.coe_mul, ← EReal.coe_add, Ideal.sqrt_coe, if_neg h, nrm]

theorem rr_eq : rr x = (nrm X : EReal) := by
  have h : ¬ (X 0 * X 0 + X 1 * X 1 + X 2 * X 2 < 0) := not_lt.mpr (add_nonneg (add_nonneg (mul_self_nonneg _) (mul_self_nonneg _)) (mul_self_nonneg _))
  have e : zero + ∑ k : Fin 3, x k * x k = ((X 0 * X 0 + X 1 * X 1 + X 2 * X 2 : ℝ) : EReal) := by
    simp only [zero_eq, Fin.sum_univ_three, hX, EReal.coe_zero, zero_add, EReal.coe_mul, EReal.coe_add]
  rw [rr, e, Ideal.sqrt_coe, if_neg h, nrm]

/-- `a = 2u - u²` with `u = 1/r`. -/
theorem ka_eq (hr : nrm X ≠ 0) : ka x = ((2 * (1 / nrm X) - (1 / nrm X) ^ 2 : ℝ) : EReal) := by
  simp only [ka, kinv2, kinv, kr_eq hX, one_eq, two_eq, Ideal.div_coe hr, ← EReal.coe_mul, ← EReal.coe_sub]
  refine congrArg Real.toEReal ?_
  ring

/-- `b = 2u⁴ - 2u³` with `u = 1/r`. -/
theorem kb_eq (hr : nrm X ≠ 0) : kb x = ((2 * (1 / nrm X) ^ 4 - 2 * (1 / nrm X) ^ 3 : ℝ) : EReal) := by
  simp only [kb, kinv2, kinv, kr_eq hX, one_eq, two_eq, Ideal.div_coe hr, ← EReal.coe_mul, ← EReal.coe_sub]
  refine congrArg Real.toEReal ?_
  ring

/-- The differentiated Jacobian is the closed one, `a·δᵢⱼ + b·xᵢ·xⱼ`. -/
theorem rJ_eq (hr : nrm X ≠ 0) (i j : Fin 3) :
    rJ x i j = (((2 * (1 / nrm X) - (1 / nrm X) ^ 2) * (if i = j then 1 else 0)
      + (2 * (1 / nrm X) ^ 4 - 2 * (1 / nrm X) ^ 3) * X i * X j : ℝ) : EReal) := by
  have hrr : nrm X * nrm X ≠ 0 := mul_ne_zero hr hr
  simp only [rJ, rt, rg, rr_eq hX, eye_eq, one_eq, two_eq, half_eq, zero_eq, hX, Fin.sum_univ_three,
    Finset.univ_unique, Finset.sum_singleton, ← EReal.coe_mul, Ideal.div_coe hr, Ideal.div_coe hrr,
    ← EReal.coe_add, ← EReal.coe_sub, ← EReal.coe_neg]
  refine congrArg Real.toEReal ?_
  have hδ : (if i = 0 then (1 : ℝ) else 0) * X 0 + (if i = 1 then (1 : ℝ) else 0) * X 1
      + (if i = 2 then (1 : ℝ) else 0) * X 2 = X i := by
    fin_cases i <;> simp
  linear_combination (2 * (1 / nrm X) ^ 4 - 2 * (1 / nrm X) ^ 3) * X j * hδ

end Finite

/-! ## The real identity for the covariance -/

/-- `J c Jᵀ` for `J = a·I + b·x xᵀ`, entry by entry. -/
theorem cov_real (a b : ℝ) (X : Fin 3 → ℝ) (C : Fin 3 → Fin 3 → ℝ) (i l : Fin 3) :
    (∑ k : Fin 3, (∑ j : Fin 3, C j k * (a * (if i = j then 1 else 0) + b * X i * X j))
        * (a * (if l = k then 1 else 0) + b * X l * X k))
      = a * a * C i l
        + a * b * ((C i 0 * X 0 + C i 1 * X 1 + C i 2 * X 2) * X l
            + X i * (C 0 l * X 0 + C 1 l * X 1 + C 2 l * X 2))
        + b * b * (X 0 * (C 0 0 * X 0 + C 0 1 * X 1 + C 0 2 * X 2) + X 1 * (C 1 0 * X 0 + C 1 1 * X 1 + C 1 2 * X 2)
            + X 2 * (C 2 0 * X 0 + C 2 1 * X 1 + C 2 2 * X 2)) * X i * X l := by
  fin_cases i <;> fin_cases l <;> simp [Fin.sum_univ_three] <;> ring

/-! ## The two forms agree -/

theorem kMean_eq_rMean (x : Fin 3 → EReal) (hx : ∀ a, x a ≠ ⊤ ∧ x a ≠ ⊥) (i : Fin 3) :
    kMean x i = rMean x i := by
  obtain ⟨X, hX⟩ : ∃ X : Fin 3 → ℝ, ∀ a, x a = (X a : EReal) :=
    ⟨fun a => (x a).toReal, fun a => (EReal.coe_toReal (hx a).1 (hx a).2).symm⟩
  rw [kMean, rMean, kr_eq hX, rr_eq hX, select_olt, select_olt]
  split_ifs with h
  · rfl
  · have h1 : (1 : ℝ) ≤ nrm X := by
      rw [one_eq] at h; exact_mod_cast not_lt.mp h
    have hr : nrm X ≠ 0 := by linarith
    rw [ka_eq hX hr]
    simp only [hX, one_eq, two_eq, Ideal.div_coe hr, ← EReal.coe_mul, ← EReal.coe_sub]
    refine congrArg Real.toEReal ?_
    ring

theorem kCov_eq_rCov (x : Fin 3 → EReal) (c : Fin 3 → Fin 3 → EReal) (hx : ∀ a, x a ≠ ⊤ ∧ x a ≠ ⊥)
    (hc : ∀ a b, c a b ≠ ⊤ ∧ c a b ≠ ⊥) (i l : Fin 3) : kCov x c i l = rCov x c i l := by
  obtain ⟨X, hX⟩ : ∃ X : Fin 3 → ℝ, ∀ a, x a = (X a : EReal) :=
    ⟨fun a => (x a).toReal, fun a => (EReal.coe_toReal (hx a).1 (hx a).2).symm⟩
  obtain ⟨C, hC⟩ : ∃ C : Fin 3 → Fin 3 → ℝ, ∀ a b, c a b = (C a b : EReal) :=
    ⟨fun a b => (c a b).toReal, fun a b => (EReal.coe_toReal (hc a b).1 (hc a b).2).symm⟩
  rw [kCov, rCov, kr_eq hX, rr_eq hX, select_oge, select_oge]
  split_ifs with h
  · have h1 : (1 : ℝ) ≤ nrm X := by
      rw [one_eq] at h; exact_mod_cast h
    have hr : nrm X ≠ 0 := by linarith
    have key := cov_real (2 * (1 / nrm X) - (1 / nrm X) ^ 2) (2 * (1 / nrm X) ^ 4 - 2 * (1 / nrm X) ^ 3) X C i l
    simp only [Fin.sum_univ_three] at key
    rw [ka_eq hX hr, kb_eq hX hr]
    simp only [kv, kw, ks, rJ_eq hX hr, hX, hC, Fin.sum_univ_three, ← EReal.coe_mul, ← EReal.coe_add]
    refine congrArg Real.toEReal ?_
    linear_combination (-1 : ℝ) * key
  · rfl

end Cert.Contract

end
-- ==== Proof.Finite.lean ====
/-
  The precondition "every entry of both inputs satisfies |x| < +∞", read back: every entry of the mean array and of the
  covariance array is a real, that is, neither `⊤` nor `⊥` of the extended reals.

  The printed predicate is the conjunction of two `all`-reductions, each over the comparison `max x (-x) < ⊤` taken
  entry by entry.  A conjunction that is 1 has both conjuncts 1; an `and`-reduction onto a single result that is 1 met a
  1 at every entry; and `max x (-x) < ⊤` says `x < ⊤` and `-x < ⊤`, so `x` is neither infinity.
-/
import proofs.«130601_j54795192762843_2_alg».proof.Proof.Gen.Pre_finite_inputs
import Idealize.ShloMosaic.Lib.ReduceAll
import Idealize.ShloMosaic.Lib.ValueIdx
import Idealize.ShloMosaic.PureOps.Ideal

noncomputable section

namespace Cert.Contract.Finite

open Idealize.ShloMosaic

/-- The float word of `+∞` denotes `⊤`. -/
theorem ofBits_inf : Ideal.ofBits .f32 0x7F800000#32 = ⊤ := by simp [Ideal.ofBits, Ideal.ieee]

/-- One entry: if the comparison `|x| < +∞` answers 1 then `x` is a real. -/
theorem finite_of_abs_lt (x : EReal)
    (h : Ideal.cmp .olt (max x (-x)) (Ideal.ofBits .f32 0x7F800000#32) = 1#1) : x ≠ ⊤ ∧ x ≠ ⊥ := by
  rw [ofBits_inf] at h
  have hlt : max x (-x) < ⊤ := by
    by_contra hn
    simp [Ideal.cmp, hn] at h
  rw [max_lt_iff] at hlt
  refine ⟨ne_of_lt hlt.1, ?_⟩
  rintro rfl
  simp at hlt

/-- The one index of the rank-0 result. -/
instance : Subsingleton Cert.Pre_finite_inputs.S_.Idx := ⟨fun _ _ => funext fun d => d.elim0⟩

theorem finite_of_pre [Cert.Pre_finite_inputs.Facts] (A0 : FVec Ideal Cert.Pre_finite_inputs.S4194304x3 .f32)
    (A1 : FVec Ideal Cert.Pre_finite_inputs.S4194304x3x3 .f32)
    (h : Cert.Pre_finite_inputs.fn (F := Ideal) A0 A1 = fun _ => 1#1) :
    (∀ j, A0 j ≠ ⊤ ∧ A0 j ≠ ⊥) ∧ (∀ j, A1 j ≠ ⊤ ∧ A1 j ≠ ⊥) := by
  have h0 := congrFun h ValueIdx.ix0
  dsimp only [Cert.Pre_finite_inputs.fn] at h0
  obtain ⟨ha, hb⟩ := IntOp.andi_eq_one.1 h0
  refine ⟨fun j => ?_, fun j => ?_⟩
  · exact finite_of_abs_lt _ (Host.reduce_andi_all _ _ _ _ _ ha j)
  · exact finite_of_abs_lt _ (Host.reduce_andi_all _ _ _ _ _ hb j)

end Cert.Contract.Finite

end
-- ==== Proof.lean ====
/-
  Scene contraction of four million Gaussians: a Pallas kernel against its jnp reference, over the extended reals.

  Per sample, with `r = ‖x‖`: the mean `x` is kept inside the unit ball and sent to `(2 - 1/r)·x/r` outside; the
  covariance `c` is kept inside and sent to `J c Jᵀ` outside, `J` the Jacobian of the contraction.  The kernel
  evaluates the CLOSED form `J = a·I + b·x xᵀ` (`a = 2/r - 1/r²`, `b = 2/r⁴ - 2/r³`), lane by lane on a
  structure-of-arrays layout; the reference differentiates the contraction in reverse mode and contracts `J`, `c`, `J`
  by two batched products.

  * the kernel's program ends with the closed form of its arguments, sample by sample (the generated frame run, its
    blocks read at an index, the host transposes and reshapes around the region);
  * the reference's program ends with the differentiated form (the generated run, read one operation at a time);
  * on finite inputs the two forms are the same real numbers: both compare the same norm with 1, and outside the
    unit ball the norm is a positive real, so every quotient is a real quotient and the two Jacobians are one
    rational function of `1/r`, `x`.
  The three frames are the generated ones; the idealization rewrote nothing, so `preserves` is trivial.
-/
import proofs.«130601_j54795192762843_2_alg».proof.Defs
import proofs.«130601_j54795192762843_2_alg».proof.Proof.Gen.Kernel
import proofs.«130601_j54795192762843_2_alg».proof.Proof.Gen.Kernel.Skeleton
import proofs.«130601_j54795192762843_2_alg».proof.Proof.Gen.Kernel.Launch
import proofs.«130601_j54795192762843_2_alg».proof.Proof.Gen.Kernel.Points
import proofs.«130601_j54795192762843_2_alg».proof.Proof.Gen.Kernel.Frame
import proofs.«130601_j54795192762843_2_alg».proof.Proof.Gen.KernelIdeal
import proofs.«130601_j54795192762843_2_alg».proof.Proof.Gen.KernelIdeal.Skeleton
import proofs.«130601_j54795192762843_2_alg».proof.Proof.Gen.KernelIdeal.Launch
import proofs.«130601_j54795192762843_2_alg».proof.Proof.Gen.KernelIdeal.Points
import proofs.«130601_j54795192762843_2_alg».proof.Proof.Gen.KernelIdeal.Frame
import proofs.«130601_j54795192762843_2_alg».proof.Proof.Gen.ReferenceIdeal
import proofs.«130601_j54795192762843_2_alg».proof.Proof.Gen.Pre_finite_inputs
import proofs.«130601_j54795192762843_2_alg».proof.Proof.Gen.ReferenceIdeal.Run
import proofs.«130601_j54795192762843_2_alg».proof.Proof.Gen.ReferenceIdeal.Read
import proofs.«130601_j54795192762843_2_alg».proof.Proof.KernelHost
import proofs.«130601_j54795192762843_2_alg».proof.Proof.RefRead
import proofs.«130601_j54795192762843_2_alg».proof.Proof.Algebra
import proofs.«130601_j54795192762843_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the same two arrays: sample by sample the closed form (kernel) and the differentiated form
    (reference) of the same finite mean and covariance. -/
theorem algebraic : Cert.algebraic_KernelIdeal_ReferenceIdeal := by
  intro m ρ m' ρ' hpre hagree
  refine ⟨fun c => Cert.KernelIdeal.Host.meanK (m ((c : Thread Cert.KernelIdeal.nD Cert.KernelIdeal.τ).loc Cert.KernelIdeal.main_arg0)),
    fun c => Cert.KernelIdeal.Host.covK (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Host.run m ρ, ?_⟩
  refine (θ_run Cert.ReferenceIdeal.defs _ _).mono (fun r h c => ?_) (Cert.ReferenceIdeal.Value.run (F := Ideal) m' ρ')
  obtain ⟨h1, h2, h3, h4⟩ := h c
  obtain ⟨fin0, fin1⟩ := Cert.Contract.Finite.finite_of_pre _ _ (hpre c)
  refine ⟨h1.trans ?_, h2.trans ?_, h3, h4⟩
  · rw [Cert.ReferenceIdeal.Read.val_main_v11_eq, (hagree c).1]
    funext i
    rw [Cert.ReferenceIdeal.RefValue.mean_read]
    exact (Cert.Contract.kMean_eq_rMean _ (fun a => fin0 _) _).symm
  · rw [Cert.ReferenceIdeal.Read.val_main_v76_eq, (hagree c).1, (hagree c).2]
    funext i
    rw [Cert.ReferenceIdeal.RefValue.cov_read]
    exact (Cert.Contract.kCov_eq_rCov _ _ (fun a => fin0 _) (fun a b => fin1 _) _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
